-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v16_0)) (v1 : (c : Dev Cert.KernelIdeal.nD) → Buf (Elt Ideal) ((c.tc : Thread Cert.KernelIdeal.nD Cert.KernelIdeal.τ).loc Cert.KernelIdeal.main_v16_1)) (v2 : (c : Dev Cert.KernelIdeal.nD) → Buf (Elt Ideal) ((c.tc : Thread Cert.KernelIdeal.nD Cert.KernelIdeal.τ).loc Cert.KernelIdeal.main_v16_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v16_0) = v0 c
          ∧ r.2.mem ((c.tc : Thread Cert.KernelIdeal.nD Cert.KernelIdeal.τ).loc Cert.KernelIdeal.main_v16_1) = v1 c
          ∧ r.2.mem ((c.tc : Thread Cert.KernelIdeal.nD Cert.KernelIdeal.τ).loc Cert.KernelIdeal.main_v16_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v52) = v0 c
          ∧ r.2.mem ((c.tc : Thread Cert.ReferenceIdeal.nD Cert.ReferenceIdeal.τ).loc Cert.ReferenceIdeal.main_v99) = v1 c
          ∧ r.2.mem ((c.tc : Thread Cert.ReferenceIdeal.nD Cert.ReferenceIdeal.τ).loc Cert.ReferenceIdeal.main_v5) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x1024 : Shape := ⟨2, ![16384, 1024]⟩
abbrev S1024x1024 : Shape := ⟨2, ![1024, 1024]⟩
abbrev S1024 : Shape := ⟨1, ![1024]⟩
abbrev S3072x1024 : Shape := ⟨2, ![3072, 1024]⟩
abbrev S3072 : Shape := ⟨1, ![3072]⟩
abbrev S_ : Shape := ⟨0, ![]⟩

class Facts : Prop where
  bcast_S_S16384x1024 : S_.BroadcastsInDim S16384x1024 (![] : Fin 0 → Fin S16384x1024.rank)
  reducesTo_S16384x1024_S_d0_1 : S16384x1024.ReducesTo [0, 1] S_
  h_S_ : 0 < S_.numel
  bcast_S_S1024x1024 : S_.BroadcastsInDim S1024x1024 (![] : Fin 0 → Fin S1024x1024.rank)
  reducesTo_S1024x1024_S_d0_1 : S1024x1024.ReducesTo [0, 1] S_
  bcast_S_S1024 : S_.BroadcastsInDim S1024 (![] : Fin 0 → Fin S1024.rank)
  reducesTo_S1024_S_d0 : S1024.ReducesTo [0] S_
  bcast_S_S3072x1024 : S_.BroadcastsInDim S3072x1024 (![] : Fin 0 → Fin S3072x1024.rank)
  reducesTo_S3072x1024_S_d0_1 : S3072x1024.ReducesTo [0, 1] S_
  bcast_S_S3072 : S_.BroadcastsInDim S3072 (![] : Fin 0 → Fin S3072.rank)
  reducesTo_S3072_S_d0 : S3072.ReducesTo [0] S_

variable [Facts]

def fn_part3 {F : FTy → Type} [FloatOps F] (main_arg11 : FVec F S1024 .f32) (main_v48 : IVec S_ 1) (main_v49 : FVec F S1024x1024 .f32) (main_v50 : FVec F S1024x1024 .f32) : IVec S_ 1 :=
  let main_v51 : IVec S1024x1024 1 := cmpf .olt main_v49 main_v50
  let main_c_19 : IVec S_ 1 := constantI S_ 1 1#1
  let main_v52 : IVec S_ 1 := (fun x v => Host.reduce IntOp.andi x v reducesTo_S1024x1024_S_d0_1 h_S_) main_v51 main_c_19
  let main_v53 : IVec S_ 1 := andi main_v48 main_v52
  let main_v54 : FVec F S1024 .f32 := Host.absf main_arg11
  let main_cst_20 : FVec F S_ .f32 := constant S_ .f32 0x7F800000#32
  let main_v55 : FVec F S1024 .f32 := broadcastInDim S1024 ![] bcast_S_S1024 main_cst_20
  let main_v56 : IVec S1024 1 := cmpf .olt main_v54 main_v55
  let main_c_21 : IVec S_ 1 := constantI S_ 1 1#1
  let main_v57 : IVec S_ 1 := (fun x v => Host.reduce IntOp.andi x v reducesTo_S1024_S_d0 h_S_) main_v56 main_c_21
  let main_v58 : IVec S_ 1 := andi main_v53 main_v57
  main_v58

def fn_part2 {F : FTy → Type} [FloatOps F] (main_arg7 : FVec F S1024 .f32) (main_arg8 : FVec F S3072x1024 .f32) (main_arg9 : FVec F S3072 .f32) (main_arg10 : FVec F S1024x1024 .f32) (main_arg11 : FVec F S1024 .f32) (main_v33 : IVec S_ 1) : IVec S_ 1 :=
  let main_v34 : FVec F S1024 .f32 := Host.absf main_arg7
  let main_cst_12 : FVec F S_ .f32 := constant S_ .f32 0x7F800000#32
  let main_v35 : FVec F S1024 .f32 := broadcastInDim S1024 ![] bcast_S_S1024 main_cst_12
  let main_v36 : IVec S1024 1 := cmpf .olt main_v34 main_v35
  let main_c_13 : IVec S_ 1 := constantI S_ 1 1#1
  let main_v37 : IVec S_ 1 := (fun x v => Host.reduce IntOp.andi x v reducesTo_S1024_S_d0 h_S_) main_v36 main_c_13
  let main_v38 : IVec S_ 1 := andi main_v33 main_v37
  let main_v39 : FVec F S3072x1024 .f32 := Host.absf main_arg8
  let main_cst_14 : FVec F S_ .f32 := constant S_ .f32 0x7F800000#32
  let main_v40 : FVec F S3072x1024 .f32 := broadcastInDim S3072x1024 ![] bcast_S_S3072x1024 main_cst_14
  let main_v41 : IVec S3072x1024 1 := cmpf .olt main_v39 main_v40
  let main_c_15 : IVec S_ 1 := constantI S_ 1 1#1
  let main_v42 : IVec S_ 1 := (fun x v => Host.reduce IntOp.andi x v reducesTo_S3072x1024_S_d0_1 h_S_) main_v41 main_c_15
  let main_v43 : IVec S_ 1 := andi main_v38 main_v42
  let main_v44 : FVec F S3072 .f32 := Host.absf main_arg9
  let main_cst_16 : FVec F S_ .f32 := constant S_ .f32 0x7F800000#32
  let main_v45 : FVec F S3072 .f32 := broadcastInDim S3072 ![] bcast_S_S3072 main_cst_16
  let main_v46 : IVec S3072 1 := cmpf .olt main_v44 main_v45
  let main_c_17 : IVec S_ 1 := constantI S_ 1 1#1
  let main_v47 : IVec S_ 1 := (fun x v => Host.reduce IntOp.andi x v reducesTo_S3072_S_d0 h_S_) main_v46 main_c_17
  let main_v48 : IVec S_ 1 := andi main_v43 main_v47
  let main_v49 : FVec F S1024x1024 .f32 := Host.absf main_arg10
  let main_cst_18 : FVec F S_ .f32 := constant S_ .f32 0x7F800000#32
  let main_v50 : FVec F S1024x1024 .f32 := broadcastInDim S1024x1024 ![] bcast_S_S1024x1024 main_cst_18
  fn_part3 (F := F) main_arg11 main_v48 main_v49 main_v50

def fn_part1 {F : FTy → Type} [FloatOps F] (main_arg4 : FVec F S3072x1024 .f32) (main_arg5 : FVec F S3072 .f32) (main_arg6 : FVec F S1024x1024 .f32) (main_arg7 : FVec F S1024 .f32) (main_arg8 : FVec F S3072x1024 .f32) (main_arg9 : FVec F S3072 .f32) (main_arg10 : FVec F S1024x1024 .f32) (main_arg11 : FVec F S1024 .f32) (main_v13 : IVec S_ 1) (main_v16 : IVec S1024 1) : IVec S_ 1 :=
  let main_c_5 : IVec S_ 1 := constantI S_ 1 1#1
  let main_v17 : IVec S_ 1 := (fun x v => Host.reduce IntOp.andi x v reducesTo_S1024_S_d0 h_S_) main_v16 main_c_5
  let main_v18 : IVec S_ 1 := andi main_v13 main_v17
  let main_v19 : FVec F S3072x1024 .f32 := Host.absf main_arg4
  let main_cst_6 : FVec F S_ .f32 := constant S_ .f32 0x7F800000#32
  let main_v20 : FVec F S3072x1024 .f32 := broadcastInDim S3072x1024 ![] bcast_S_S3072x1024 main_cst_6
  let main_v21 : IVec S3072x1024 1 := cmpf .olt main_v19 main_v20
  let main_c_7 : IVec S_ 1 := constantI S_ 1 1#1
  let main_v22 : IVec S_ 1 := (fun x v => Host.reduce IntOp.andi x v reducesTo_S3072x1024_S_d0_1 h_S_) main_v21 main_c_7
  let main_v23 : IVec S_ 1 := andi main_v18 main_v22
  let main_v24 : FVec F S3072 .f32 := Host.absf main_arg5
  let main_cst_8 : FVec F S_ .f32 := constant S_ .f32 0x7F800000#32
  let main_v25 : FVec F S3072 .f32 := broadcastInDim S3072 ![] bcast_S_S3072 main_cst_8
  let main_v26 : IVec S3072 1 := cmpf .olt main_v24 main_v25
  let main_c_9 : IVec S_ 1 := constantI S_ 1 1#1
  let main_v27 : IVec S_ 1 := (fun x v => Host.reduce IntOp.andi x v reducesTo_S3072_S_d0 h_S_) main_v26 main_c_9
  let main_v28 : IVec S_ 1 := andi main_v23 main_v27
  let main_v29 : FVec F S1024x1024 .f32 := Host.absf main_arg6
  let main_cst_10 : FVec F S_ .f32 := constant S_ .f32 0x7F800000#32
  let main_v30 : FVec F S1024x1024 .f32 := broadcastInDim S1024x1024 ![] bcast_S_S1024x1024 main_cst_10
  let main_v31 : IVec S1024x1024 1 := cmpf .olt main_v29 main_v30
  let main_c_11 : IVec S_ 1 := constantI S_ 1 1#1
  let main_v32 : IVec S_ 1 := (fun x v => Host.reduce IntOp.andi x v reducesTo_S1024x1024_S_d0_1 h_S_) main_v31 main_c_11
  let main_v33 : IVec S_ 1 := andi main_v28 main_v32
  fn_part2 (F := F) main_arg7 main_arg8 main_arg9 main_arg10 main_arg11 main_v33

def fn {F : FTy → Type} [FloatOps F] (main_arg0 : FVec F S16384x1024 .f32) (main_arg1 : FVec F S16384x1024 .f32) (main_arg2 : FVec F S1024x1024 .f32) (main_arg3 : FVec F S1024 .f32) (main_arg4 : FVec F S3072x1024 .f32) (main_arg5 : FVec F S3072 .f32) (main_arg6 : FVec F S1024x1024 .f32) (main_arg7 : FVec F S1024 .f32) (main_arg8 : FVec F S3072x1024 .f32) (main_arg9 : FVec F S3072 .f32) (main_arg10 : FVec F S1024x1024 .f32) (main_arg11 : FVec F S1024 .f32) : IVec S_ 1 :=
  let main_v0 : FVec F S16384x1024 .f32 := Host.absf main_arg0
  let main_cst : FVec F S_ .f32 := constant S_ .f32 0x7F800000#32
  let main_v1 : FVec F S16384x1024 .f32 := broadcastInDim S16384x1024 ![] bcast_S_S16384x1024 main_cst
  let main_v2 : IVec S16384x1024 1 := cmpf .olt main_v0 main_v1
  let main_c : IVec S_ 1 := constantI S_ 1 1#1
  let main_v3 : IVec S_ 1 := (fun x v => Host.reduce IntOp.andi x v reducesTo_S16384x1024_S_d0_1 h_S_) main_v2 main_c
  let main_v4 : FVec F S16384x1024 .f32 := Host.absf main_arg1
  let main_cst_0 : FVec F S_ .f32 := constant S_ .f32 0x7F800000#32
  let main_v5 : FVec F S16384x1024 .f32 := broadcastInDim S16384x1024 ![] bcast_S_S16384x1024 main_cst_0
  let main_v6 : IVec S16384x1024 1 := cmpf .olt main_v4 main_v5
  let main_c_1 : IVec S_ 1 := constantI S_ 1 1#1
  let main_v7 : IVec S_ 1 := (fun x v => Host.reduce IntOp.andi x v reducesTo_S16384x1024_S_d0_1 h_S_) main_v6 main_c_1
  let main_v8 : IVec S_ 1 := andi main_v3 main_v7
  let main_v9 : FVec F S1024x1024 .f32 := Host.absf main_arg2
  let main_cst_2 : FVec F S_ .f32 := constant S_ .f32 0x7F800000#32
  let main_v10 : FVec F S1024x1024 .f32 := broadcastInDim S1024x1024 ![] bcast_S_S1024x1024 main_cst_2
  let main_v11 : IVec S1024x1024 1 := cmpf .olt main_v9 main_v10
  let main_c_3 : IVec S_ 1 := constantI S_ 1 1#1
  let main_v12 : IVec S_ 1 := (fun x v => Host.reduce IntOp.andi x v reducesTo_S1024x1024_S_d0_1 h_S_) main_v11 main_c_3
  let main_v13 : IVec S_ 1 := andi main_v8 main_v12
  let main_v14 : FVec F S1024 .f32 := Host.absf main_arg3
  let main_cst_4 : FVec F S_ .f32 := constant S_ .f32 0x7F800000#32
  let main_v15 : FVec F S1024 .f32 := broadcastInDim S1024 ![] bcast_S_S1024 main_cst_4
  let main_v16 : IVec S1024 1 := cmpf .olt main_v14 main_v15
  fn_part1 (F := F) main_arg4 main_arg5 main_arg6 main_arg7 main_arg8 main_arg9 main_arg10 main_arg11 main_v13 main_v16
-- ==== Kernel.lean ====
abbrev S16384x1024 : Shape := ⟨2, ![16384, 1024]⟩
abbrev S1024x1024 : Shape := ⟨2, ![1024, 1024]⟩
abbrev S1024 : Shape := ⟨1, ![1024]⟩
abbrev S3072x1024 : Shape := ⟨2, ![3072, 1024]⟩
abbrev S3072 : Shape := ⟨1, ![3072]⟩
abbrev S1x1024 : Shape := ⟨2, ![1, 1024]⟩
abbrev S1024x2048 : Shape := ⟨2, ![1024, 2048]⟩
abbrev S1x2048 : Shape := ⟨2, ![1, 2048]⟩
abbrev S512x1024 : Shape := ⟨2, ![512, 1024]⟩
abbrev S512x2048 : Shape := ⟨2, ![512, 2048]⟩

abbrev nBuf : Space → Nat
  | .hbm => 31
  | .vmem => 18
  | .smem => 0
  | _ => 0

abbrev bufTy : (tb : Table) → Fin (tcTables nBuf tb) → BufTy
  | .hbm, ⟨0, _⟩ => ⟨S16384x1024, .f32⟩
  | .hbm, ⟨1, _⟩ => ⟨S16384x1024, .f32⟩
  | .hbm, ⟨2, _⟩ => ⟨S1024x1024, .f32⟩
  | .hbm, ⟨3, _⟩ => ⟨S1024, .f32⟩
  | .hbm, ⟨4, _⟩ => ⟨S3072x1024, .f32⟩
  | .hbm, ⟨5, _⟩ => ⟨S3072, .f32⟩
  | .hbm, ⟨6, _⟩ => ⟨S1024x1024, .f32⟩
  | .hbm, ⟨7, _⟩ => ⟨S1024, .f32⟩
  | .hbm, ⟨8, _⟩ => ⟨S3072x1024, .f32⟩
  | .hbm, ⟨9, _⟩ => ⟨S3072, .f32⟩
  | .hbm, ⟨10, _⟩ => ⟨S1024x1024, .f32⟩
  | .hbm, ⟨11, _⟩ => ⟨S1024, .f32⟩
  | .hbm, ⟨12, _⟩ => ⟨S1024x1024, .f32⟩
  | .hbm, ⟨13, _⟩ => ⟨S1024, .f32⟩
  | .hbm, ⟨14, _⟩ => ⟨S1x1024, .f32⟩
  | .hbm, ⟨15, _⟩ => ⟨S1024x1024, .f32⟩
  | .hbm, ⟨16, _⟩ => ⟨S1024, .f32⟩
  | .hbm, ⟨17, _⟩ => ⟨S1x1024, .f32⟩
  | .hbm, ⟨18, _⟩ => ⟨S1024x1024, .f32⟩
  | .hbm, ⟨19, _⟩ => ⟨S1024x1024, .f32⟩
  | .hbm, ⟨20, _⟩ => ⟨S1024x1024, .f32⟩
  | .hbm, ⟨21, _⟩ => ⟨S1024x1024, .f32⟩
  | .hbm, ⟨22, _⟩ => ⟨S1024x1024, .f32⟩
  | .hbm, ⟨23, _⟩ => ⟨S1024x2048, .f32⟩
  | .hbm, ⟨24, _⟩ => ⟨S1x2048, .f32⟩
  | .hbm, ⟨25, _⟩ => ⟨S1x1024, .f32⟩
  | .hbm, ⟨26, _⟩ => ⟨S1x1024, .f32⟩
  | .hbm, ⟨27, _⟩ => ⟨S1x1024, .f32⟩
  | .hbm, ⟨28, _⟩ => ⟨S16384x1024, .f32⟩
  | .hbm, ⟨29, _⟩ => ⟨S16384x1024, .f32⟩
  | .hbm, ⟨30, _⟩ => ⟨S16384x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S1024x1024, .f32⟩
  | .local _ .vmem, ⟨5, _⟩ => ⟨S1x1024, .f32⟩
  | .local _ .vmem, ⟨6, _⟩ => ⟨S1024x2048, .f32⟩
  | .local _ .vmem, ⟨7, _⟩ => ⟨S1x2048, .f32⟩
  | .local _ .vmem, ⟨8, _⟩ => ⟨S1024x1024, .f32⟩
  | .local _ .vmem, ⟨9, _⟩ => ⟨S1x1024, .f32⟩
  | .local _ .vmem, ⟨10, _⟩ => ⟨S1024x1024, .f32⟩
  | .local _ .vmem, ⟨11, _⟩ => ⟨S1x1024, .f32⟩
  | .local _ .vmem, ⟨12, _⟩ => ⟨S512x1024, .f32⟩
  | .local _ .vmem, ⟨13, _⟩ => ⟨S512x1024, .f32⟩
  | .local _ .vmem, ⟨14, _⟩ => ⟨S512x1024, .f32⟩
  | .local _ .vmem, ⟨15, _⟩ => ⟨S512x1024, .f32⟩
  | .local _ .vmem, ⟨16, _⟩ => ⟨S512x1024, .f32⟩
  | .local _ .vmem, ⟨17, _⟩ => ⟨S512x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16_0 : Ref sig .tc := ⟨.hbm, 28, rfl⟩
abbrev main_v16_1 : Ref sig .tc := ⟨.hbm, 29, rfl⟩
abbrev main_v16_2 : Ref sig .tc := ⟨.hbm, 30, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg10_1 : Ref sig .tc := ⟨.vmem, 13, rfl⟩
abbrev cc0_stg11_0 : Ref sig .tc := ⟨.vmem, 14, rfl⟩
abbrev cc0_stg11_1 : Ref sig .tc := ⟨.vmem, 15, rfl⟩
abbrev cc0_stg12_0 : Ref sig .tc := ⟨.vmem, 16, rfl⟩
abbrev cc0_stg12_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem10_1 : DmaSem sig := 13
abbrev cc0_sem11_0 : DmaSem sig := 14
abbrev cc0_sem11_1 : DmaSem sig := 15
abbrev cc0_sem12_0 : DmaSem sig := 16
abbrev cc0_sem12_1 : DmaSem sig := 17

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S512x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

class Facts₀ : Prop where
  slices_S3072x1024_S1024x1024_2048_0 : S3072x1024.Slices ![2048, 0] S1024x1024
  slices_S3072_S1024_2048 : S3072.Slices ![2048] S1024
  shapeCasts_S1024_S1x1024 : S1024.ShapeCasts S1x1024
  transposes_S1024x1024_S1024x1024_1_0 : S1024x1024.Transposes [1, 0] S1024x1024
  concatenates_S1024x1024_S1024x1024_S1024x2048_d1 : Shape.Concatenates [S1024x1024, S1024x1024] S1024x2048 1
  concatenates_S1x1024_S1x1024_S1x2048_d1 : Shape.Concatenates [S1x1024, S1x1024] S1x2048 1
  inb_S512x1024_S512x1024_0_0 : ∀ a, (![0, 0] : Fin 2 → Nat) a + S512x1024.size a ≤ S512x1024.size a
  h_S512x1024 : 0 < S512x1024.numel
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S512x1024 : S1x1024.Broadcasts S512x1024
  inb_S1024x2048_S1024x2048_0_0 : ∀ a, (![0, 0] : Fin 2 → Nat) a + S1024x2048.size a ≤ S1024x2048.size a
  h_S1024x2048 : 0 < S1024x2048.numel
  shapeCasts_S1024x2048_S1024x2048 : S1024x2048.ShapeCasts S1024x2048
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  broadcasts_S1x2048_S512x2048 : S1x2048.Broadcasts S512x2048
  slices_S512x2048_o0_0_S512x1024 : S512x2048.Slices ![0, 0] S512x1024
  slices_S512x2048_o0_1024_S512x1024 : S512x2048.Slices ![0, 1024] S512x1024
  dot_S512x1024_S1024x1024_S512x1024_1_0_0_1_n_n_wf : DotDims.WF S512x1024 S1024x1024 S512x1024 [1] [0] [0] [1] [] []
  dot_S512x1024_S1024x2048_S512x2048_1_0_0_1_n_n_wf : DotDims.WF S512x1024 S1024x2048 S512x2048 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x1024.size a ≤ S16384x1024.size a
  hwx0_0 : ∀ i : grid0.Coords, EltTy.bits .f32 = 32 ∨ (Rect.block (s := S16384x1024) S512x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x1024.size a ≤ S16384x1024.size a
  hwx0_1 : ∀ i : grid0.Coords, EltTy.bits .f32 = 32 ∨ (Rect.block (s := S16384x1024) S512x1024.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1024x1024.size a ≤ S1024x1024.size a
  hwx0_2 : ∀ i : grid0.Coords, EltTy.bits .f32 = 32 ∨ (Rect.block (s := S1024x1024) S1024x1024.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x1024.size a ≤ S1x1024.size a
  hwx0_3 : ∀ i : grid0.Coords, EltTy.bits .f32 = 32 ∨ (Rect.block (s := S1x1024) S1x1024.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1024x2048.size a ≤ S1024x2048.size a
  hwx0_4 : ∀ i : grid0.Coords, EltTy.bits .f32 = 32 ∨ (Rect.block (s := S1024x2048) S1024x2048.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x2048.size a ≤ S1x2048.size a
  hwx0_5 : ∀ i : grid0.Coords, EltTy.bits .f32 = 32 ∨ (Rect.block (s := S1x2048) S1x2048.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1024x1024.size a ≤ S1024x1024.size a
  hwx0_6 : ∀ i : grid0.Coords, EltTy.bits .f32 = 32 ∨ (Rect.block (s := S1024x1024) S1024x1024.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x1024.size a ≤ S1x1024.size a
  hwx0_7 : ∀ i : grid0.Coords, EltTy.bits .f32 = 32 ∨ (Rect.block (s := S1x1024) S1x1024.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1024x1024.size a ≤ S1024x1024.size a
  hwx0_8 : ∀ i : grid0.Coords, EltTy.bits .f32 = 32 ∨ (Rect.block (s := S1024x1024) S1024x1024.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S1x1024.size a ≤ S1x1024.size a
  hwx0_9 : ∀ i : grid0.Coords, EltTy.bits .f32 = 32 ∨ (Rect.block (s := S1x1024) S1x1024.size (cc0_transform_9 i) (hinb0_9 i)).WholeWords (EltTy.packing .f32)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S512x1024.size a ≤ S16384x1024.size a
  hwx0_10 : ∀ i : grid0.Coords, EltTy.bits .f32 = 32 ∨ (Rect.block (s := S16384x1024) S512x1024.size (cc0_transform_10 i) (hinb0_10 i)).WholeWords (EltTy.packing .f32)
  hstage0_11 : ∀ j, (stage0_11 j).IsWhole
  nbuf0_11 : grid0.bufCount reads0_11 false = 2
  hreads0_11 : ∀ i i' : grid0.Coords, (∀ a, reads0_11 a = true → i a = i' a) → cc0_transform_11 i = cc0_transform_11 i'
  hinb0_11 : ∀ (i : grid0.Coords) a, (cc0_transform_11 i a + 1) * S512x1024.size a ≤ S16384x1024.size a
  hwx0_11 : ∀ i : grid0.Coords, EltTy.bits .f32 = 32 ∨ (Rect.block (s := S16384x1024) S512x1024.size (cc0_transform_11 i) (hinb0_11 i)).WholeWords (EltTy.packing .f32)
  hstage0_12 : ∀ j, (stage0_12 j).IsWhole
  nbuf0_12 : grid0.bufCount reads0_12 false = 2
  hreads0_12 : ∀ i i' : grid0.Coords, (∀ a, reads0_12 a = true → i a = i' a) → cc0_transform_12 i = cc0_transform_12 i'
  hinb0_12 : ∀ (i : grid0.Coords) a, (cc0_transform_12 i a + 1) * S512x1024.size a ≤ S16384x1024.size a
  hwx0_12 : ∀ i : grid0.Coords, EltTy.bits .f32 = 32 ∨ (Rect.block (s := S16384x1024) S512x1024.size (cc0_transform_12 i) (hinb0_12 i)).WholeWords (EltTy.packing .f32)

variable [Facts₀]

def dot_S512x1024_S1024x1024_S512x1024_1_0_0_1_n_n : DotDims S512x1024 S1024x1024 S512x1024 where
  lhsContracting := [1]
  rhsContracting := [0]
  lhsNonContracting := [0]
  rhsNonContracting := [1]
  lhsBatch := []
  rhsBatch := []
  wf := dot_S512x1024_S1024x1024_S512x1024_1_0_0_1_n_n_wf
def dot_S512x1024_S1024x2048_S512x2048_1_0_0_1_n_n : DotDims S512x1024 S1024x2048 S512x2048 where
  lhsContracting := [1]
  rhsContracting := [0]
  lhsNonContracting := [0]
  rhsNonContracting := [1]
  lhsBatch := []
  rhsBatch := []
  wf := dot_S512x1024_S1024x2048_S512x2048_1_0_0_1_n_n_wf

abbrev win0_0 : Pipeline.Window sig grid0 :=
  Pipeline.Window.ofSpec (Memref.whole main_arg0) S512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S512x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v6) S1024x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v13) S1x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v11) S1024x2048.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v12) S1x2048.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v7) S1024x1024.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v14) S1x1024.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v8) S1024x1024.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v15) S1x1024.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v16_0) S512x1024.size cc0_transform_10 reads0_10 true false 2 stage0_10 sem0_10
    hrank0 hreads0_10 hinb0_10 nbuf0_10 (Memref.isWhole_whole _) hwx0_10 hstage0_10

abbrev win0_11 : Pipeline.Window sig grid0 :=
  Pipeline.Window.ofSpec (Memref.whole main_v16_1) S512x1024.size cc0_transform_11 reads0_11 true false 2 stage0_11 sem0_11
    hrank0 hreads0_11 hinb0_11 nbuf0_11 (Memref.isWhole_whole _) hwx0_11 hstage0_11

abbrev win0_12 : Pipeline.Window sig grid0 :=
  Pipeline.Window.ofSpec (Memref.whole main_v16_2) S512x1024.size cc0_transform_12 reads0_12 true false 2 stage0_12 sem0_12
    hrank0 hreads0_12 hinb0_12 nbuf0_12 (Memref.isWhole_whole _) hwx0_12 hstage0_12

abbrev win0 : Fin 13 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | ⟨_ + 13, h⟩ => absurd h (Nat.not_lt.2 (Nat.le_add_left _ _))
abbrev spec0 : Fin 13 → Pipeline.WinSpec sig grid0.rank := fun w => (win0 w).toWinSpec

class Facts : Prop extends Facts₀ where

variable [Facts]
-- ==== ReferenceIdeal.lean ====
abbrev S16384x1024 : Shape := ⟨2, ![16384, 1024]⟩
abbrev S1024x1024 : Shape := ⟨2, ![1024, 1024]⟩
abbrev S1024 : Shape := ⟨1, ![1024]⟩
abbrev S3072x1024 : Shape := ⟨2, ![3072, 1024]⟩
abbrev S3072 : Shape := ⟨1, ![3072]⟩
abbrev S1x1024 : Shape := ⟨2, ![1, 1024]⟩
abbrev S16384x8x128 : Shape := ⟨3, ![16384, 8, 128]⟩
abbrev S_ : Shape := ⟨0, ![]⟩
abbrev S16384x8 : Shape := ⟨2, ![16384, 8]⟩
abbrev S16384x8x1 : Shape := ⟨3, ![16384, 8, 1]⟩

abbrev nBuf : Space → Nat
  | .hbm => 122
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S16384x1024, .f32⟩
  | .hbm, ⟨2, _⟩ => ⟨S1024x1024, .f32⟩
  | .hbm, ⟨3, _⟩ => ⟨S1024, .f32⟩
  | .hbm, ⟨4, _⟩ => ⟨S3072x1024, .f32⟩
  | .hbm, ⟨5, _⟩ => ⟨S3072, .f32⟩
  | .hbm, ⟨6, _⟩ => ⟨S1024x1024, .f32⟩
  | .hbm, ⟨7, _⟩ => ⟨S1024, .f32⟩
  | .hbm, ⟨8, _⟩ => ⟨S3072x1024, .f32⟩
  | .hbm, ⟨9, _⟩ => ⟨S3072, .f32⟩
  | .hbm, ⟨10, _⟩ => ⟨S1024x1024, .f32⟩
  | .hbm, ⟨11, _⟩ => ⟨S1024, .f32⟩
  | .hbm, ⟨12, _⟩ => ⟨S16384x1024, .f32⟩
  | .hbm, ⟨13, _⟩ => ⟨S1024x1024, .f32⟩
  | .hbm, ⟨14, _⟩ => ⟨S16384x1024, .f32⟩
  | .hbm, ⟨15, _⟩ => ⟨S1x1024, .f32⟩
  | .hbm, ⟨16, _⟩ => ⟨S16384x1024, .f32⟩
  | .hbm, ⟨17, _⟩ => ⟨S16384x1024, .f32⟩
  | .hbm, ⟨18, _⟩ => ⟨S1024x1024, .f32⟩
  | .hbm, ⟨19, _⟩ => ⟨S1024x1024, .f32⟩
  | .hbm, ⟨20, _⟩ => ⟨S1024x1024, .f32⟩
  | .hbm, ⟨21, _⟩ => ⟨S1024, .f32⟩
  | .hbm, ⟨22, _⟩ => ⟨S1024, .f32⟩
  | .hbm, ⟨23, _⟩ => ⟨S1024, .f32⟩
  | .hbm, ⟨24, _⟩ => ⟨S1024x1024, .f32⟩
  | .hbm, ⟨25, _⟩ => ⟨S16384x1024, .f32⟩
  | .hbm, ⟨26, _⟩ => ⟨S1x1024, .f32⟩
  | .hbm, ⟨27, _⟩ => ⟨S16384x1024, .f32⟩
  | .hbm, ⟨28, _⟩ => ⟨S16384x1024, .f32⟩
  | .hbm, ⟨29, _⟩ => ⟨S16384x8x128, .f32⟩
  | .hbm, ⟨30, _⟩ => ⟨S1024x1024, .f32⟩
  | .hbm, ⟨31, _⟩ => ⟨S16384x1024, .f32⟩
  | .hbm, ⟨32, _⟩ => ⟨S1x1024, .f32⟩
  | .hbm, ⟨33, _⟩ => ⟨S16384x1024, .f32⟩
  | .hbm, ⟨34, _⟩ => ⟨S16384x1024, .f32⟩
  | .hbm, ⟨35, _⟩ => ⟨S16384x8x128, .f32⟩
  | .hbm, ⟨36, _⟩ => ⟨S1024x1024, .f32⟩
  | .hbm, ⟨37, _⟩ => ⟨S16384x1024, .f32⟩
  | .hbm, ⟨38, _⟩ => ⟨S1x1024, .f32⟩
  | .hbm, ⟨39, _⟩ => ⟨S16384x1024, .f32⟩
  | .hbm, ⟨40, _⟩ => ⟨S16384x1024, .f32⟩
  | .hbm, ⟨41, _⟩ => ⟨S16384x8x128, .f32⟩
  | .hbm, ⟨42, _⟩ => ⟨S16384x8x128, .f32⟩
  | .hbm, ⟨43, _⟩ => ⟨S_, .f32⟩
  | .hbm, ⟨44, _⟩ => ⟨S16384x8, .f32⟩
  | .hbm, ⟨45, _⟩ => ⟨S_, .f32⟩
  | .hbm, ⟨46, _⟩ => ⟨S_, .f32⟩
  | .hbm, ⟨47, _⟩ => ⟨S16384x8, .f32⟩
  | .hbm, ⟨48, _⟩ => ⟨S16384x8, .f32⟩
  | .hbm, ⟨49, _⟩ => ⟨S16384x8x1, .f32⟩
  | .hbm, ⟨50, _⟩ => ⟨S_, .f32⟩
  | .hbm, ⟨51, _⟩ => ⟨S16384x8, .f32⟩
  | .hbm, ⟨52, _⟩ => ⟨S_, .f32⟩
  | .hbm, ⟨53, _⟩ => ⟨S16384x8, .f32⟩
  | .hbm, ⟨54, _⟩ => ⟨S16384x8, .f32⟩
  | .hbm, ⟨55, _⟩ => ⟨S16384x8x1, .f32⟩
  | .hbm, ⟨56, _⟩ => ⟨S16384x8x1, .f32⟩
  | .hbm, ⟨57, _⟩ => ⟨S16384x8x1, .f32⟩
  | .hbm, ⟨58, _⟩ => ⟨S_, .f32⟩
  | .hbm, ⟨59, _⟩ => ⟨S16384x8, .f32⟩
  | .hbm, ⟨60, _⟩ => ⟨S16384x8x1, .f32⟩
  | .hbm, ⟨61, _⟩ => ⟨S16384x8x1, .f32⟩
  | .hbm, ⟨62, _⟩ => ⟨S16384x8x128, .f32⟩
  | .hbm, ⟨63, _⟩ => ⟨S16384x8x128, .f32⟩
  | .hbm, ⟨64, _⟩ => ⟨S16384x1024, .f32⟩
  | .hbm, ⟨65, _⟩ => ⟨S1024x1024, .f32⟩
  | .hbm, ⟨66, _⟩ => ⟨S16384x1024, .f32⟩
  | .hbm, ⟨67, _⟩ => ⟨S1x1024, .f32⟩
  | .hbm, ⟨68, _⟩ => ⟨S16384x1024, .f32⟩
  | .hbm, ⟨69, _⟩ => ⟨S16384x1024, .f32⟩
  | .hbm, ⟨70, _⟩ => ⟨S1024x1024, .f32⟩
  | .hbm, ⟨71, _⟩ => ⟨S1024x1024, .f32⟩
  | .hbm, ⟨72, _⟩ => ⟨S1024x1024, .f32⟩
  | .hbm, ⟨73, _⟩ => ⟨S1024, .f32⟩
  | .hbm, ⟨74, _⟩ => ⟨S1024, .f32⟩
  | .hbm, ⟨75, _⟩ => ⟨S1024, .f32⟩
  | .hbm, ⟨76, _⟩ => ⟨S1024x1024, .f32⟩
  | .hbm, ⟨77, _⟩ => ⟨S16384x1024, .f32⟩
  | .hbm, ⟨78, _⟩ => ⟨S1x1024, .f32⟩
  | .hbm, ⟨79, _⟩ => ⟨S16384x1024, .f32⟩
  | .hbm, ⟨80, _⟩ => ⟨S16384x1024, .f32⟩
  | .hbm, ⟨81, _⟩ => ⟨S16384x8x128, .f32⟩
  | .hbm, ⟨82, _⟩ => ⟨S1024x1024, .f32⟩
  | .hbm, ⟨83, _⟩ => ⟨S16384x1024, .f32⟩
  | .hbm, ⟨84, _⟩ => ⟨S1x1024, .f32⟩
  | .hbm, ⟨85, _⟩ => ⟨S16384x1024, .f32⟩
  | .hbm, ⟨86, _⟩ => ⟨S16384x1024, .f32⟩
  | .hbm, ⟨87, _⟩ => ⟨S16384x8x128, .f32⟩
  | .hbm, ⟨88, _⟩ => ⟨S1024x1024, .f32⟩
  | .hbm, ⟨89, _⟩ => ⟨S16384x1024, .f32⟩
  | .hbm, ⟨90, _⟩ => ⟨S1x1024, .f32⟩
  | .hbm, ⟨91, _⟩ => ⟨S16384x1024, .f32⟩
  | .hbm, ⟨92, _⟩ => ⟨S16384x1024, .f32⟩
  | .hbm, ⟨93, _⟩ => ⟨S16384x8x128, .f32⟩
  | .hbm, ⟨94, _⟩ => ⟨S16384x8x128, .f32⟩
  | .hbm, ⟨95, _⟩ => ⟨S_, .f32⟩
  | .hbm, ⟨96, _⟩ => ⟨S16384x8, .f32⟩
  | .hbm, ⟨97, _⟩ => ⟨S_, .f32⟩
  | .hbm, ⟨98, _⟩ => ⟨S_, .f32⟩
  | .hbm, ⟨99, _⟩ => ⟨S16384x8, .f32⟩
  | .hbm, ⟨100, _⟩ => ⟨S16384x8, .f32⟩
  | .hbm, ⟨101, _⟩ => ⟨S16384x8x1, .f32⟩
  | .hbm, ⟨102, _⟩ => ⟨S_, .f32⟩
  | .hbm, ⟨103, _⟩ => ⟨S16384x8, .f32⟩
  | .hbm, ⟨104, _⟩ => ⟨S_, .f32⟩
  | .hbm, ⟨105, _⟩ => ⟨S16384x8, .f32⟩
  | .hbm, ⟨106, _⟩ => ⟨S16384x8, .f32⟩
  | .hbm, ⟨107, _⟩ => ⟨S16384x8x1, .f32⟩
  | .hbm, ⟨108, _⟩ => ⟨S16384x8x1, .f32⟩
  | .hbm, ⟨109, _⟩ => ⟨S16384x8x1, .f32⟩
  | .hbm, ⟨110, _⟩ => ⟨S_, .f32⟩
  | .hbm, ⟨111, _⟩ => ⟨S16384x8, .f32⟩
  | .hbm, ⟨112, _⟩ => ⟨S16384x8x1, .f32⟩
  | .hbm, ⟨113, _⟩ => ⟨S16384x8x1, .f32⟩
  | .hbm, ⟨114, _⟩ => ⟨S16384x8x128, .f32⟩
  | .hbm, ⟨115, _⟩ => ⟨S16384x8x128, .f32⟩
  | .hbm, ⟨116, _⟩ => ⟨S16384x1024, .f32⟩
  | .hbm, ⟨117, _⟩ => ⟨S1024x1024, .f32⟩
  | .hbm, ⟨118, _⟩ => ⟨S16384x1024, .f32⟩
  | .hbm, ⟨119, _⟩ => ⟨S1x1024, .f32⟩
  | .hbm, ⟨120, _⟩ => ⟨S16384x1024, .f32⟩
  | .hbm, ⟨121, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_cst : Ref sig .tc := ⟨.hbm, 43, rfl⟩
abbrev main_v31 : Ref sig .tc := ⟨.hbm, 44, rfl⟩
abbrev main_cst_0 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_cst_1 : Ref sig .tc := ⟨.hbm, 50, rfl⟩
abbrev main_v36 : Ref sig .tc := ⟨.hbm, 51, rfl⟩
abbrev main_cst_2 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_cst_3 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_v64 : Ref sig .tc := ⟨.hbm, 81, rfl⟩
abbrev main_v65 : Ref sig .tc := ⟨.hbm, 82, rfl⟩
abbrev main_v66 : Ref sig .tc := ⟨.hbm, 83, rfl⟩
abbrev main_v67 : Ref sig .tc := ⟨.hbm, 84, rfl⟩
abbrev main_v68 : Ref sig .tc := ⟨.hbm, 85, rfl⟩
abbrev main_v69 : Ref sig .tc := ⟨.hbm, 86, rfl⟩
abbrev main_v70 : Ref sig .tc := ⟨.hbm, 87, rfl⟩
abbrev main_v71 : Ref sig .tc := ⟨.hbm, 88, rfl⟩
abbrev main_v72 : Ref sig .tc := ⟨.hbm, 89, rfl⟩
abbrev main_v73 : Ref sig .tc := ⟨.hbm, 90, rfl⟩
abbrev main_v74 : Ref sig .tc := ⟨.hbm, 91, rfl⟩
abbrev main_v75 : Ref sig .tc := ⟨.hbm, 92, rfl⟩
abbrev main_v76 : Ref sig .tc := ⟨.hbm, 93, rfl⟩
abbrev main_v77 : Ref sig .tc := ⟨.hbm, 94, rfl⟩
abbrev main_cst_4 : Ref sig .tc := ⟨.hbm, 95, rfl⟩
abbrev main_v78 : Ref sig .tc := ⟨.hbm, 96, rfl⟩
abbrev main_cst_5 : Ref sig .tc := ⟨.hbm, 97, rfl⟩
abbrev main_v79 : Ref sig .tc := ⟨.hbm, 98, rfl⟩
abbrev main_v80 : Ref sig .tc := ⟨.hbm, 99, rfl⟩
abbrev main_v81 : Ref sig .tc := ⟨.hbm, 100, rfl⟩
abbrev main_v82 : Ref sig .tc := ⟨.hbm, 101, rfl⟩
abbrev main_cst_6 : Ref sig .tc := ⟨.hbm, 102, rfl⟩
abbrev main_v83 : Ref sig .tc := ⟨.hbm, 103, rfl⟩
abbrev main_cst_7 : Ref sig .tc := ⟨.hbm, 104, rfl⟩
abbrev main_v84 : Ref sig .tc := ⟨.hbm, 105, rfl⟩
abbrev main_v85 : Ref sig .tc := ⟨.hbm, 106, rfl⟩
abbrev main_v86 : Ref sig .tc := ⟨.hbm, 107, rfl⟩
abbrev main_v87 : Ref sig .tc := ⟨.hbm, 108, rfl⟩
abbrev main_v88 : Ref sig .tc := ⟨.hbm, 109, rfl⟩
abbrev main_cst_8 : Ref sig .tc := ⟨.hbm, 110, rfl⟩
abbrev main_v89 : Ref sig .tc := ⟨.hbm, 111, rfl⟩
abbrev main_v90 : Ref sig .tc := ⟨.hbm, 112, rfl⟩
abbrev main_v91 : Ref sig .tc := ⟨.hbm, 113, rfl⟩
abbrev main_v92 : Ref sig .tc := ⟨.hbm, 114, rfl⟩
abbrev main_v93 : Ref sig .tc := ⟨.hbm, 115, rfl⟩
abbrev main_v94 : Ref sig .tc := ⟨.hbm, 116, rfl⟩
abbrev main_v95 : Ref sig .tc := ⟨.hbm, 117, rfl⟩
abbrev main_v96 : Ref sig .tc := ⟨.hbm, 118, rfl⟩
abbrev main_v97 : Ref sig .tc := ⟨.hbm, 119, rfl⟩
abbrev main_v98 : Ref sig .tc := ⟨.hbm, 120, rfl⟩
abbrev main_v99 : Ref sig .tc := ⟨.hbm, 121, rfl⟩

abbrev nD : Nat := 1
abbrev τ : Topo := Topo.v7x

variable {F : FTy → Type} [FloatOps F]

class Facts₀ : Prop where
  transposes_S1024x1024_S1024x1024_1_0 : S1024x1024.Transposes [1, 0] S1024x1024
  bcast_S1024_S1x1024_1 : S1024.BroadcastsInDim S1x1024 (![1] : Fin 1 → Fin S1x1024.rank)
  bcast_S1x1024_S16384x1024_0_1 : S1x1024.BroadcastsInDim S16384x1024 (![0, 1] : Fin 2 → Fin S16384x1024.rank)
  slices_S3072x1024_S1024x1024_0_0 : S3072x1024.Slices ![0, 0] S1024x1024
  slices_S3072x1024_S1024x1024_1024_0 : S3072x1024.Slices ![1024, 0] S1024x1024
  slices_S3072x1024_S1024x1024_2048_0 : S3072x1024.Slices ![2048, 0] S1024x1024
  slices_S3072_S1024_0 : S3072.Slices ![0] S1024
  slices_S3072_S1024_1024 : S3072.Slices ![1024] S1024
  slices_S3072_S1024_2048 : S3072.Slices ![2048] S1024
  shapeCasts_S16384x1024_S16384x8x128 : S16384x1024.ShapeCasts S16384x8x128
  reducesTo_S16384x8x128_S16384x8_d2 : S16384x8x128.ReducesTo [2] S16384x8
  h_S_ : 0 < S_.numel
  bcast_S_S16384x8 : S_.BroadcastsInDim S16384x8 (![] : Fin 0 → Fin S16384x8.rank)
  bcast_S16384x8_S16384x8x1_0_1 : S16384x8.BroadcastsInDim S16384x8x1 (![0, 1] : Fin 2 → Fin S16384x8x1.rank)
  reducesTo_S16384x8x1_S16384x8_d2 : S16384x8x1.ReducesTo [2] S16384x8
  bcast_S16384x8x1_S16384x8x128_0_1_2 : S16384x8x1.BroadcastsInDim S16384x8x128 (![0, 1, 2] : Fin 3 → Fin S16384x8x128.rank)
  shapeCasts_S16384x8x128_S16384x1024 : S16384x8x128.ShapeCasts S16384x1024
  dot_S16384x1024_S1024x1024_S16384x1024_1_0_0_1_n_n_wf : DotDims.WF S16384x1024 S1024x1024 S16384x1024 [1] [0] [0] [1] [] []

variable [Facts₀]

def dot_S16384x1024_S1024x1024_S16384x1024_1_0_0_1_n_n : DotDims S16384x1024 S1024x1024 S16384x1024 where
  lhsContracting := [1]
  rhsContracting := [0]
  lhsNonContracting := [0]
  rhsNonContracting := [1]
  lhsBatch := []
  rhsBatch := []
  wf := dot_S16384x1024_S1024x1024_S16384x1024_1_0_0_1_n_n_wf

class Facts : Prop extends Facts₀ where

variable [Facts]
-- ==== Proof.Spec.lean ====
/-
  The three results of the fusion block as functions of its twelve argument arrays, entry by entry, on the extended reals.

  A batch of 16384 rows of 1024 features goes through three affine layers. With x = text + image,
    fused[r, c]   = (sum over k of x[r, k] * fuse_w[c, k]) + fuse_b[c],
  and each of the two attention heads sees a single key, so its attention weight is 1 and the head reduces to the
  value projection followed by the output projection:
    value[r, j]   = (sum over k of fused[r, k] * in_w[2048 + j, k]) + in_b[2048 + j]     (the last third of the packed rows),
    head[r, c]    = (sum over j of value[r, j] * out_w[c, j]) + out_b[c].
  Every weight matrix is stored [out, in], so a layer contracts the second axis of both of its factors.
  The functions are stated over coordinates first and then over indices of the literal shapes.
-/
import Idealize.ShloMosaic.PureOps.Ideal
import Idealize.ShloMosaic.Lib.ValueIdx

noncomputable section

namespace Cert.Fusion

open Idealize.ShloMosaic Idealize.ShloMosaic.ValueIdx

/-- A batch of feature rows. -/
abbrev Rows : Shape := ⟨2, ![16384, 1024]⟩
/-- A square weight matrix, stored [out, in]. -/
abbrev Sq : Shape := ⟨2, ![1024, 1024]⟩
/-- A bias vector. -/
abbrev Vc : Shape := ⟨1, ![1024]⟩
/-- The packed in-projection of an attention head: query, key and value rows one after the other. -/
abbrev Packed : Shape := ⟨2, ![3072, 1024]⟩
/-- Its packed bias. -/
abbrev PackedVc : Shape := ⟨1, ![3072]⟩

/-- Row `2048 + j` of a packed in-projection: row `j` of its value part. -/
def vrow (j : Fin 1024) : Fin 3072 := ⟨2048 + j.val, by omega⟩

theorem vrow_val (j : Fin 1024) : (vrow j).val = 2048 + j.val := rfl

/-- The fuse layer at row `r`, column `c`. -/
def fusedAt (t im : Rows.Idx → EReal) (w : Sq.Idx → EReal) (b : Vc.Idx → EReal) (r : Fin 16384) (c : Fin 1024) : EReal :=
  (∑ k : Fin 1024, (t (ix2 r k) + im (ix2 r k)) * w (ix2 c k)) + b (ix1 c)

/-- The fuse layer as an array. -/
def fused (t im : Rows.Idx → EReal) (w : Sq.Idx → EReal) (b : Vc.Idx → EReal) : Rows.Idx → EReal :=
  fun i => fusedAt t im w b (i 0) (i 1)

/-- A head's value projection of the array `f` at row `r`, column `j`. -/
def valueAt (f : Rows.Idx → EReal) (w : Packed.Idx → EReal) (b : PackedVc.Idx → EReal) (r : Fin 16384) (j : Fin 1024) : EReal :=
  (∑ k : Fin 1024, f (ix2 r k) * w (ix2 (vrow j) k)) + b (ix1 (vrow j))

/-- A head's value projection as an array. -/
def value (f : Rows.Idx → EReal) (w : Packed.Idx → EReal) (b : PackedVc.Idx → EReal) : Rows.Idx → EReal :=
  fun i => valueAt f w b (i 0) (i 1)

/-- A head's output projection of the array `v` at row `r`, column `c`. -/
def headAt (v : Rows.Idx → EReal) (w : Sq.Idx → EReal) (b : Vc.Idx → EReal) (r : Fin 16384) (c : Fin 1024) : EReal :=
  (∑ j : Fin 1024, v (ix2 r j) * w (ix2 c j)) + b (ix1 c)

/-- A head's output projection as an array. -/
def head (v : Rows.Idx → EReal) (w : Sq.Idx → EReal) (b : Vc.Idx → EReal) : Rows.Idx → EReal :=
  fun i => headAt v w b (i 0) (i 1)

theorem fused_ix2 (t im : Rows.Idx → EReal) (w : Sq.Idx → EReal) (b : Vc.Idx → EReal) (r : Fin 16384) (c : Fin 1024) :
    fused t im w b (ix2 r c) = fusedAt t im w b r c := rfl

theorem value_ix2 (f : Rows.Idx → EReal) (w : Packed.Idx → EReal) (b : PackedVc.Idx → EReal) (r : Fin 16384) (j : Fin 1024) :
    value f w b (ix2 r j) = valueAt f w b r j := rfl

theorem head_ix2 (v : Rows.Idx → EReal) (w : Sq.Idx → EReal) (b : Vc.Idx → EReal) (r : Fin 16384) (c : Fin 1024) :
    head v w b (ix2 r c) = headAt v w b r c := rfl

/-- A whole head: the output projection of the value projection. -/
def attend (f : Rows.Idx → EReal) (inw : Packed.Idx → EReal) (inb : PackedVc.Idx → EReal) (ow : Sq.Idx → EReal) (ob : Vc.Idx → EReal) :
    Rows.Idx → EReal :=
  head (value f inw inb) ow ob

end Cert.Fusion

end
-- ==== Proof.GridBlocks.lean ====
/-
  What each grid point's staged blocks hold, as entries of the arrays the region finds.

  The grid has 32 points. Point t stages rows 512 t .. 512 t + 511 of the text and image arrays, and the whole of every
  staged weight and bias (their windows never move); it writes its three result blocks back to the same rows of the
  three result arrays. The relations between the printed index maps and the point's number are decided once over the
  32 points; everything else is arithmetic on coordinates: an array coordinate under a block is the block's index times the
  block's extent plus the coordinate inside the block.
-/
import proofs.«140227_j14018773254229_2_alg».proof.Proof.Gen.KernelIdeal.Frame
import proofs.«140227_j14018773254229_2_alg».proof.Proof.Spec
import Idealize.ShloMosaic.Lib.Pipeline.Value

noncomputable section

namespace Cert.KernelIdeal.FusionValue

open Cert.KernelIdeal Cert.KernelIdeal.Gen Cert.Fusion Idealize.ShloMosaic Idealize.ShloMosaic.ValueIdx
open Idealize.ShloMosaic.TcCoe Idealize.SL.Sem

/-- The row-blocked windows (the two inputs and the three results) are at block (t, 0) at point t; the windows of the
    staged weights and biases stay at block (0, 0). -/
theorem index_facts : ∀ t : Fin cfg0.N,
    (win0_0.index t (0 : Fin 2) = t.val ∧ win0_0.index t (1 : Fin 2) = 0)
    ∧ (win0_1.index t (0 : Fin 2) = t.val ∧ win0_1.index t (1 : Fin 2) = 0)
    ∧ (win0_2.index t (0 : Fin 2) = 0 ∧ win0_2.index t (1 : Fin 2) = 0)
    ∧ (win0_3.index t (0 : Fin 2) = 0 ∧ win0_3.index t (1 : Fin 2) = 0)
    ∧ (win0_4.index t (0 : Fin 2) = 0 ∧ win0_4.index t (1 : Fin 2) = 0)
    ∧ (win0_5.index t (0 : Fin 2) = 0 ∧ win0_5.index t (1 : Fin 2) = 0)
    ∧ (win0_6.index t (0 : Fin 2) = 0 ∧ win0_6.index t (1 : Fin 2) = 0)
    ∧ (win0_7.index t (0 : Fin 2) = 0 ∧ win0_7.index t (1 : Fin 2) = 0)
    ∧ (win0_8.index t (0 : Fin 2) = 0 ∧ win0_8.index t (1 : Fin 2) = 0)
    ∧ (win0_9.index t (0 : Fin 2) = 0 ∧ win0_9.index t (1 : Fin 2) = 0)
    ∧ (win0_10.index t (0 : Fin 2) = t.val ∧ win0_10.index t (1 : Fin 2) = 0)
    ∧ (win0_11.index t (0 : Fin 2) = t.val ∧ win0_11.index t (1 : Fin 2) = 0)
    ∧ (win0_12.index t (0 : Fin 2) = t.val ∧ win0_12.index t (1 : Fin 2) = 0) :=
  (by decide +kernel : ∀ t : Fin grid0.N, _)

/-- The body reads and writes each staged block whole: at offsets (0, 0), however the zeros are spelt. -/
theorem offsets_zero : (![0, 0] : Fin 2 → Nat) = fun _ => 0 := funext fun a => by fin_cases a <;> rfl

/-- Row p of point t's block is row 512 t + p of the array. -/
def rowOf (t : Fin cfg0.N) (p : Fin 512) : Fin 16384 :=
  ⟨512 * t.val + p.val, by have h : cfg0.N = 32 := N_0; have := t.isLt; have := p.isLt; omega⟩

theorem rowOf_val (t : Fin cfg0.N) (p : Fin 512) : (rowOf t p).val = 512 * t.val + p.val := rfl

variable (m : (ℓ : Loc nD τ sig) → Buf (Elt Ideal) ℓ) (c : Dev nD)

/-! ## The two row-blocked inputs -/

/-- Point t's text block at (p, k) is the text array at (512 t + p, k). -/
theorem text_rows (t : Fin cfg0.N) (p : Fin 512) (k : Fin 1024) :
    (iblk m c 0 t : Vec Ideal S512x1024 .f32) (ix2 p k)
      = (m ((c : Thread nD τ).loc main_arg0) : Rows.Idx → EReal) (ix2 (rowOf t p) k) := by
  obtain ⟨⟨e0, e1⟩, -⟩ := index_facts t
  unfold iblk
  rw [View.read_apply]
  show V m c main_arg0 _ = _
  rw [V_main_arg0]
  congr 1
  funext a
  apply Fin.ext
  match a with
  | ⟨0, _⟩ => show win0_0.index t (0 : Fin 2) * 512 + 1 * p.val = 512 * t.val + p.val; rw [e0]; omega
  | ⟨1, _⟩ => show win0_0.index t (1 : Fin 2) * 1024 + 1 * k.val = k.val; rw [e1]; omega

/-- Point t's image block at (p, k) is the image array at (512 t + p, k). -/
theorem image_rows (t : Fin cfg0.N) (p : Fin 512) (k : Fin 1024) :
    (iblk m c 1 t : Vec Ideal S512x1024 .f32) (ix2 p k)
      = (m ((c : Thread nD τ).loc main_arg1) : Rows.Idx → EReal) (ix2 (rowOf t p) k) := by
  obtain ⟨-, ⟨e0, e1⟩, -⟩ := index_facts t
  unfold iblk
  rw [View.read_apply]
  show V m c main_arg1 _ = _
  rw [V_main_arg1]
  congr 1
  funext a
  apply Fin.ext
  match a with
  | ⟨0, _⟩ => show win0_1.index t (0 : Fin 2) * 512 + 1 * p.val = 512 * t.val + p.val; rw [e0]; omega
  | ⟨1, _⟩ => show win0_1.index t (1 : Fin 2) * 1024 + 1 * k.val = k.val; rw [e1]; omega

/-! ## The staged weights and biases: the block is the whole array -/

theorem whole_2 (t : Fin cfg0.N) (k j : Fin 1024) :
    (iblk m c 2 t : Vec Ideal S1024x1024 .f32) (ix2 k j) = (V m c main_v6 : S1024x1024.Idx → EReal) (ix2 k j) := by
  obtain ⟨-, -, ⟨e0, e1⟩, -⟩ := index_facts t
  unfold iblk
  rw [View.read_apply]
  show V m c main_v6 _ = _
  congr 1
  funext a
  apply Fin.ext
  match a with
  | ⟨0, _⟩ => show win0_2.index t (0 : Fin 2) * 1024 + 1 * k.val = k.val; rw [e0]; omega
  | ⟨1, _⟩ => show win0_2.index t (1 : Fin 2) * 1024 + 1 * j.val = j.val; rw [e1]; omega

theorem whole_3 (t : Fin cfg0.N) (u : Fin 1) (j : Fin 1024) :
    (iblk m c 3 t : Vec Ideal S1x1024 .f32) (ix2 u j) = (V m c main_v13 : S1x1024.Idx → EReal) (ix2 u j) := by
  obtain ⟨-, -, -, ⟨e0, e1⟩, -⟩ := index_facts t
  unfold iblk
  rw [View.read_apply]
  show V m c main_v13 _ = _
  congr 1
  funext a
  apply Fin.ext
  match a with
  | ⟨0, _⟩ => show win0_3.index t (0 : Fin 2) * 1 + 1 * u.val = u.val; rw [e0]; omega
  | ⟨1, _⟩ => show win0_3.index t (1 : Fin 2) * 1024 + 1 * j.val = j.val; rw [e1]; omega

theorem whole_4 (t : Fin cfg0.N) (k : Fin 1024) (j : Fin 2048) :
    (iblk m c 4 t : Vec Ideal S1024x2048 .f32) (ix2 k j) = (V m c main_v11 : S1024x2048.Idx → EReal) (ix2 k j) := by
  obtain ⟨-, -, -, -, ⟨e0, e1⟩, -⟩ := index_facts t
  unfold iblk
  rw [View.read_apply]
  show V m c main_v11 _ = _
  congr 1
  funext a
  apply Fin.ext
  match a with
  | ⟨0, _⟩ => show win0_4.index t (0 : Fin 2) * 1024 + 1 * k.val = k.val; rw [e0]; omega
  | ⟨1, _⟩ => show win0_4.index t (1 : Fin 2) * 2048 + 1 * j.val = j.val; rw [e1]; omega

theorem whole_5 (t : Fin cfg0.N) (u : Fin 1) (j : Fin 2048) :
    (iblk m c 5 t : Vec Ideal S1x2048 .f32) (ix2 u j) = (V m c main_v12 : S1x2048.Idx → EReal) (ix2 u j) := by
  obtain ⟨-, -, -, -, -, ⟨e0, e1⟩, -⟩ := index_facts t
  unfold iblk
  rw [View.read_apply]
  show V m c main_v12 _ = _
  congr 1
  funext a
  apply Fin.ext
  match a with
  | ⟨0, _⟩ => show win0_5.index t (0 : Fin 2) * 1 + 1 * u.val = u.val; rw [e0]; omega
  | ⟨1, _⟩ => show win0_5.index t (1 : Fin 2) * 2048 + 1 * j.val = j.val; rw [e1]; omega

theorem whole_6 (t : Fin cfg0.N) (k j : Fin 1024) :
    (iblk m c 6 t : Vec Ideal S1024x1024 .f32) (ix2 k j) = (V m c main_v7 : S1024x1024.Idx → EReal) (ix2 k j) := by
  obtain ⟨-, -, -, -, -, -, ⟨e0, e1⟩, -⟩ := index_facts t
  unfold iblk
  rw [View.read_apply]
  show V m c main_v7 _ = _
  congr 1
  funext a
  apply Fin.ext
  match a with
  | ⟨0, _⟩ => show win0_6.index t (0 : Fin 2) * 1024 + 1 * k.val = k.val; rw [e0]; omega
  | ⟨1, _⟩ => show win0_6.index t (1 : Fin 2) * 1024 + 1 * j.val = j.val; rw [e1]; omega

theorem whole_7 (t : Fin cfg0.N) (u : Fin 1) (j : Fin 1024) :
    (iblk m c 7 t : Vec Ideal S1x1024 .f32) (ix2 u j) = (V m c main_v14 : S1x1024.Idx → EReal) (ix2 u j) := by
  obtain ⟨-, -, -, -, -, -, -, ⟨e0, e1⟩, -⟩ := index_facts t
  unfold iblk
  rw [View.read_apply]
  show V m c main_v14 _ = _
  congr 1
  funext a
  apply Fin.ext
  match a with
  | ⟨0, _⟩ => show win0_7.index t (0 : Fin 2) * 1 + 1 * u.val = u.val; rw [e0]; omega
  | ⟨1, _⟩ => show win0_7.index t (1 : Fin 2) * 1024 + 1 * j.val = j.val; rw [e1]; omega

theorem whole_8 (t : Fin cfg0.N) (k j : Fin 1024) :
    (iblk m c 8 t : Vec Ideal S1024x1024 .f32) (ix2 k j) = (V m c main_v8 : S1024x1024.Idx → EReal) (ix2 k j) := by
  obtain ⟨-, -, -, -, -, -, -, -, ⟨e0, e1⟩, -⟩ := index_facts t
  unfold iblk
  rw [View.read_apply]
  show V m c main_v8 _ = _
  congr 1
  funext a
  apply Fin.ext
  match a with
  | ⟨0, _⟩ => show win0_8.index t (0 : Fin 2) * 1024 + 1 * k.val = k.val; rw [e0]; omega
  | ⟨1, _⟩ => show win0_8.index t (1 : Fin 2) * 1024 + 1 * j.val = j.val; rw [e1]; omega

theorem whole_9 (t : Fin cfg0.N) (u : Fin 1) (j : Fin 1024) :
    (iblk m c 9 t : Vec Ideal S1x1024 .f32) (ix2 u j) = (V m c main_v15 : S1x1024.Idx → EReal) (ix2 u j) := by
  obtain ⟨-, -, -, -, -, -, -, -, -, ⟨e0, e1⟩, -⟩ := index_facts t
  unfold iblk
  rw [View.read_apply]
  show V m c main_v15 _ = _
  congr 1
  funext a
  apply Fin.ext
  match a with
  | ⟨0, _⟩ => show win0_9.index t (0 : Fin 2) * 1 + 1 * u.val = u.val; rw [e0]; omega
  | ⟨1, _⟩ => show win0_9.index t (1 : Fin 2) * 1024 + 1 * j.val = j.val; rw [e1]; omega

end Cert.KernelIdeal.FusionValue

end
-- ==== Proof.LibProductEntry.lean ====
/-
  A plain matrix product into a zero accumulator, read at one entry, at any contraction precision.

  For a matrix `l` of shape [M, K] and a matrix `r` of shape [K, N], contracted over `l`'s second axis and `r`'s first,
  the product's entry (p, c) on the extended reals is the sum over k of l[p, k] * r[k, c]: the zero accumulator contributes
  the real 0, the contraction index has one axis of extent K and is traded for its one coordinate k, and the operand
  indices at the output index (p, c) and contraction coordinate k are (p, k) and (k, c). The precision the operation
  carries plays no part on the extended reals, so it is a variable here.

  The dimension numbers enter through six facts, which a caller proves for its own record: the contraction shape has
  rank one and extent K, and the four coordinates of the two operand indices.
-/
import Idealize.ShloMosaic.Lib.ValueIdx
import Idealize.ShloMosaic.PureOps.Ideal.Laws

noncomputable section

namespace Cert.ProductEntry

open Idealize.ShloMosaic Idealize.ShloMosaic.ValueIdx

/-- Entry (p, c) of an [M, K] by [K, N] product into the zero accumulator is the sum over k of l[p, k] * r[k, c], for any
    precision and any dimension numbers whose contraction has the one axis of extent K and whose operand indices read
    (p, k) and (k, c). -/
theorem matmul_zero_entry {M K N : ℕ} (D : DotDims ⟨2, ![M, K]⟩ ⟨2, ![K, N]⟩ ⟨2, ![M, N]⟩) (prec : Option ContractPrecision)
    (hr : D.contr.rank = 1) (hs : D.contr.size ⟨0, by omega⟩ = K)
    (hl0 : ∀ (j : (⟨2, ![M, N]⟩ : Shape).Idx) (q : D.contr.Idx), (D.lhsIdx j q (0 : Fin 2)).val = (j (0 : Fin 2)).val)
    (hl1 : ∀ (j : (⟨2, ![M, N]⟩ : Shape).Idx) (q : D.contr.Idx), (D.lhsIdx j q (1 : Fin 2)).val = (q ⟨0, by omega⟩).val)
    (hr0 : ∀ (j : (⟨2, ![M, N]⟩ : Shape).Idx) (q : D.contr.Idx), (D.rhsIdx j q (0 : Fin 2)).val = (q ⟨0, by omega⟩).val)
    (hr1 : ∀ (j : (⟨2, ![M, N]⟩ : Shape).Idx) (q : D.contr.Idx), (D.rhsIdx j q (1 : Fin 2)).val = (j (1 : Fin 2)).val)
    {φ₁ φ₂ : FTy} (l : FVec Ideal ⟨2, ![M, K]⟩ φ₁) (r : FVec Ideal ⟨2, ![K, N]⟩ φ₂) (p : Fin M) (c : Fin N) :
    FloatOps.matmul D prec l r (constant (F := Ideal) ⟨2, ![M, N]⟩ .f32 0x00000000#32) (ix2 p c)
      = ∑ k : Fin K, l (ix2 p k) * r (ix2 k c) := by
  rw [Ideal.matmul_constant_zero_apply, ← Equiv.sum_comp (contrEquiv1 D K hr hs).symm]
  refine Finset.sum_congr rfl fun k _ => ?_
  have hk := contrEquiv1_symm_val D K hr hs k
  have el : D.lhsIdx (ix2 p c) ((contrEquiv1 D K hr hs).symm k) = ix2 p k :=
    funext fun a => Fin.ext (by
      match a with
      | ⟨0, _⟩ => exact hl0 (ix2 p c) _
      | ⟨1, _⟩ => exact (hl1 (ix2 p c) _).trans hk)
  have er : D.rhsIdx (ix2 p c) ((contrEquiv1 D K hr hs).symm k) = ix2 k c :=
    funext fun a => Fin.ext (by
      match a with
      | ⟨0, _⟩ => exact (hr0 (ix2 p c) _).trans hk
      | ⟨1, _⟩ => exact hr1 (ix2 p c) _)
  rw [el, er]

end Cert.ProductEntry

end
-- ==== Proof.BodyProducts.lean ====
/-
  The two matrix products of the kernel body, read at one entry on the extended reals.

  The body multiplies a [512, 1024] block by a [1024, 1024] matrix (three times) and by a [1024, 2048] matrix (once), each
  time contracting the block's columns with the matrix's rows and adding into a zero accumulator. Entry (p, c) of such a
  product is the sum over k of l[p, k] * r[k, c]. The facts about the dimension numbers that the general statement asks
  for are read off the two printed records here, once.
-/
import proofs.«140227_j14018773254229_2_alg».proof.Proof.Gen.KernelIdeal
import proofs.«140227_j14018773254229_2_alg».proof.Proof.LibProductEntry

noncomputable section

namespace Cert.KernelIdeal.FusionValue

open Cert.KernelIdeal Cert.KernelIdeal.Gen Idealize.ShloMosaic Idealize.ShloMosaic.ValueIdx

/-- The square product's left operand keeps the output's row. -/
theorem sq_lhs0 (i : S512x1024.Idx) (q : dot_S512x1024_S1024x1024_S512x1024_1_0_0_1_n_n.contr.Idx) :
    (dot_S512x1024_S1024x1024_S512x1024_1_0_0_1_n_n.lhsIdx i q 0).val = (i 0).val := by
  unfold DotDims.lhsIdx
  rw [dif_neg (show ¬(0 : Fin S512x1024.rank) ∈ dot_S512x1024_S1024x1024_S512x1024_1_0_0_1_n_n.lhsBatch by decide),
    dif_pos (show (0 : Fin S512x1024.rank) ∈ dot_S512x1024_S1024x1024_S512x1024_1_0_0_1_n_n.lhsNonContracting by decide)]
  rfl

/-- Its column is the contraction coordinate. -/
theorem sq_lhs1 (i : S512x1024.Idx) (q : dot_S512x1024_S1024x1024_S512x1024_1_0_0_1_n_n.contr.Idx) :
    (dot_S512x1024_S1024x1024_S512x1024_1_0_0_1_n_n.lhsIdx i q 1).val = (q ⟨0, by decide⟩).val :=
  dot_S512x1024_S1024x1024_S512x1024_1_0_0_1_n_n.lhsIdx_val_of_single rfl i q

/-- The right operand's row is the contraction coordinate. -/
theorem sq_rhs0 (i : S512x1024.Idx) (q : dot_S512x1024_S1024x1024_S512x1024_1_0_0_1_n_n.contr.Idx) :
    (dot_S512x1024_S1024x1024_S512x1024_1_0_0_1_n_n.rhsIdx i q 0).val = (q ⟨0, by decide⟩).val :=
  dot_S512x1024_S1024x1024_S512x1024_1_0_0_1_n_n.rhsIdx_val_of_single rfl i q

/-- Its column is the output's column. -/
theorem sq_rhs1 (i : S512x1024.Idx) (q : dot_S512x1024_S1024x1024_S512x1024_1_0_0_1_n_n.contr.Idx) :
    (dot_S512x1024_S1024x1024_S512x1024_1_0_0_1_n_n.rhsIdx i q 1).val = (i 1).val := by
  unfold DotDims.rhsIdx
  rw [dif_neg (show ¬(1 : Fin S1024x1024.rank) ∈ dot_S512x1024_S1024x1024_S512x1024_1_0_0_1_n_n.rhsBatch by decide),
    dif_pos (show (1 : Fin S1024x1024.rank) ∈ dot_S512x1024_S1024x1024_S512x1024_1_0_0_1_n_n.rhsNonContracting by decide)]
  rfl

/-- Entry (p, c) of a [512, 1024] block times a [1024, 1024] matrix, into the zero accumulator. -/
theorem sq_product_entry (prec : Option ContractPrecision) (l : FVec Ideal S512x1024 .f32) (r : FVec Ideal S1024x1024 .f32)
    (p : Fin 512) (c : Fin 1024) :
    matmul dot_S512x1024_S1024x1024_S512x1024_1_0_0_1_n_n prec l r (constant (F := Ideal) S512x1024 .f32 0x00000000#32) (ix2 p c)
      = ∑ k : Fin 1024, l (ix2 p k) * r (ix2 k c) :=
  Cert.ProductEntry.matmul_zero_entry dot_S512x1024_S1024x1024_S512x1024_1_0_0_1_n_n prec rfl rfl
    sq_lhs0 sq_lhs1 sq_rhs0 sq_rhs1 l r p c

/-- The wide product's left operand keeps the output's row. -/
theorem wide_lhs0 (i : S512x2048.Idx) (q : dot_S512x1024_S1024x2048_S512x2048_1_0_0_1_n_n.contr.Idx) :
    (dot_S512x1024_S1024x2048_S512x2048_1_0_0_1_n_n.lhsIdx i q 0).val = (i 0).val := by
  unfold DotDims.lhsIdx
  rw [dif_neg (show ¬(0 : Fin S512x1024.rank) ∈ dot_S512x1024_S1024x2048_S512x2048_1_0_0_1_n_n.lhsBatch by decide),
    dif_pos (show (0 : Fin S512x1024.rank) ∈ dot_S512x1024_S1024x2048_S512x2048_1_0_0_1_n_n.lhsNonContracting by decide)]
  rfl

/-- Its column is the contraction coordinate. -/
theorem wide_lhs1 (i : S512x2048.Idx) (q : dot_S512x1024_S1024x2048_S512x2048_1_0_0_1_n_n.contr.Idx) :
    (dot_S512x1024_S1024x2048_S512x2048_1_0_0_1_n_n.lhsIdx i q 1).val = (q ⟨0, by decide⟩).val :=
  dot_S512x1024_S1024x2048_S512x2048_1_0_0_1_n_n.lhsIdx_val_of_single rfl i q

/-- The right operand's row is the contraction coordinate. -/
theorem wide_rhs0 (i : S512x2048.Idx) (q : dot_S512x1024_S1024x2048_S512x2048_1_0_0_1_n_n.contr.Idx) :
    (dot_S512x1024_S1024x2048_S512x2048_1_0_0_1_n_n.rhsIdx i q 0).val = (q ⟨0, by decide⟩).val :=
  dot_S512x1024_S1024x2048_S512x2048_1_0_0_1_n_n.rhsIdx_val_of_single rfl i q

/-- Its column is the output's column. -/
theorem wide_rhs1 (i : S512x2048.Idx) (q : dot_S512x1024_S1024x2048_S512x2048_1_0_0_1_n_n.contr.Idx) :
    (dot_S512x1024_S1024x2048_S512x2048_1_0_0_1_n_n.rhsIdx i q 1).val = (i 1).val := by
  unfold DotDims.rhsIdx
  rw [dif_neg (show ¬(1 : Fin S1024x2048.rank) ∈ dot_S512x1024_S1024x2048_S512x2048_1_0_0_1_n_n.rhsBatch by decide),
    dif_pos (show (1 : Fin S1024x2048.rank) ∈ dot_S512x1024_S1024x2048_S512x2048_1_0_0_1_n_n.rhsNonContracting by decide)]
  rfl

/-- Entry (p, c) of a [512, 1024] block times a [1024, 2048] matrix, into the zero accumulator. -/
theorem wide_product_entry (prec : Option ContractPrecision) (l : FVec Ideal S512x1024 .f32) (r : FVec Ideal S1024x2048 .f32)
    (p : Fin 512) (c : Fin 2048) :
    matmul dot_S512x1024_S1024x2048_S512x2048_1_0_0_1_n_n prec l r (constant (F := Ideal) S512x2048 .f32 0x00000000#32) (ix2 p c)
      = ∑ k : Fin 1024, l (ix2 p k) * r (ix2 k c) :=
  Cert.ProductEntry.matmul_zero_entry dot_S512x1024_S1024x2048_S512x2048_1_0_0_1_n_n prec rfl rfl
    wide_lhs0 wide_lhs1 wide_rhs0 wide_rhs1 l r p c

end Cert.KernelIdeal.FusionValue

end
-- ==== Proof.BodyEntry.lean ====
/-
  The kernel body's arithmetic on one block of 512 rows, read at one entry on the extended reals.

  The body forms x = text + image, the fuse layer fused = x · W + b (a [512, 1024] block), the two heads' value
  projections side by side as one [512, 2048] block v = fused · Wv + bv, and from the left and the right half of v the two
  output projections. Each result's entry (p, c) is a sum over the contracted axis plus the bias row's entry c. The
  statements are over arbitrary blocks and matrices of the body's shapes; the weights enter as the body sees them,
  [in, out], and the biases as one-row matrices.
-/
import proofs.«140227_j14018773254229_2_alg».proof.Proof.Gen.KernelIdeal.Skeleton
import proofs.«140227_j14018773254229_2_alg».proof.Proof.BodyProducts
import Idealize.ShloMosaic.Lib.ValueLayout
import Idealize.ShloMosaic.Lib.Pipeline.Value

noncomputable section

namespace Cert.KernelIdeal.FusionValue

open Cert.KernelIdeal Cert.KernelIdeal.Gen Idealize.ShloMosaic Idealize.ShloMosaic.ValueIdx

/-- Column j of the left half of a [·, 2048] matrix. -/
def lcol (j : Fin 1024) : Fin 2048 := ⟨j.val, by omega⟩
/-- Column j of its right half. -/
def rcol (j : Fin 1024) : Fin 2048 := ⟨1024 + j.val, by omega⟩

theorem lcol_val (j : Fin 1024) : (lcol j).val = j.val := rfl
theorem rcol_val (j : Fin 1024) : (rcol j).val = 1024 + j.val := rfl

/-- The fuse layer's block: entry (p, c) is the sum over k of (x0 + x1)[p, k] * x2[k, c], plus x3[0, c]. -/
theorem fused_block_entry (x0 x1 : Vec Ideal S512x1024 .f32) (x2 : Vec Ideal S1024x1024 .f32) (x3 : Vec Ideal S1x1024 .f32)
    (p : Fin 512) (c : Fin 1024) :
    k0_pay2 x0 x1 x2 x3 (ix2 p c)
      = (∑ k : Fin 1024, (x0 (ix2 p k) + x1 (ix2 p k)) * x2 (ix2 k c)) + x3 (ix2 (0 : Fin 1) c) := by
  unfold k0_pay2
  rw [addf_apply, shapeCast_self, shapeCast_self, sq_product_entry, broadcastTo_1b_ab_apply]
  rfl

/-- The two value projections side by side: entry (p, c) is the sum over k of fused[p, k] * x4[k, c], plus x5[0, c]. -/
theorem values_block_entry (x0 x1 : Vec Ideal S512x1024 .f32) (x2 : Vec Ideal S1024x1024 .f32) (x3 : Vec Ideal S1x1024 .f32)
    (x4 : Vec Ideal S1024x2048 .f32) (x5 : Vec Ideal S1x2048 .f32) (p : Fin 512) (c : Fin 2048) :
    k0_pay3 x0 x1 x2 x3 x4 x5 (ix2 p c)
      = (∑ k : Fin 1024, k0_pay2 x0 x1 x2 x3 (ix2 p k) * x4 (ix2 k c)) + x5 (ix2 (0 : Fin 1) c) := by
  unfold k0_pay3
  rw [addf_apply, shapeCast_self, shapeCast_self, wide_product_entry, broadcastTo_1b_ab_apply]

/-- The first head's output projection reads the left half of the value block: entry (p, c) is the sum over j of
    v[p, j] * x6[j, c], plus x7[0, c]. -/
theorem text_block_entry (x0 x1 : Vec Ideal S512x1024 .f32) (x2 : Vec Ideal S1024x1024 .f32) (x3 : Vec Ideal S1x1024 .f32)
    (x4 : Vec Ideal S1024x2048 .f32) (x5 : Vec Ideal S1x2048 .f32) (x6 : Vec Ideal S1024x1024 .f32) (x7 : Vec Ideal S1x1024 .f32)
    (p : Fin 512) (c : Fin 1024) :
    k0_pay4 x0 x1 x2 x3 x4 x5 x6 x7 (ix2 p c)
      = (∑ j : Fin 1024, k0_pay3 x0 x1 x2 x3 x4 x5 (ix2 p (lcol j)) * x6 (ix2 j c)) + x7 (ix2 (0 : Fin 1) c) := by
  unfold k0_pay4
  rw [addf_apply, shapeCast_self, shapeCast_self, sq_product_entry, broadcastTo_1b_ab_apply]
  refine congrArg (· + x7 (ix2 (0 : Fin 1) c)) (Finset.sum_congr rfl fun j _ => congrArg (· * x6 (ix2 j c)) ?_)
  exact slice2_axis1_apply 0 (k0_pay3 x0 x1 x2 x3 x4 x5) slices_S512x2048_o0_0_S512x1024 p j (lcol j) (Nat.zero_add _).symm

/-- The second head's output projection reads the right half: entry (p, c) is the sum over j of v[p, 1024 + j] * x8[j, c],
    plus x9[0, c]. -/
theorem image_block_entry (x0 x1 : Vec Ideal S512x1024 .f32) (x2 : Vec Ideal S1024x1024 .f32) (x3 : Vec Ideal S1x1024 .f32)
    (x4 : Vec Ideal S1024x2048 .f32) (x5 : Vec Ideal S1x2048 .f32) (x8 : Vec Ideal S1024x1024 .f32) (x9 : Vec Ideal S1x1024 .f32)
    (p : Fin 512) (c : Fin 1024) :
    k0_pay1 (k0_pay5 x0 x1 x2 x3 x4 x5 x8) x9 (ix2 p c)
      = (∑ j : Fin 1024, k0_pay3 x0 x1 x2 x3 x4 x5 (ix2 p (rcol j)) * x8 (ix2 j c)) + x9 (ix2 (0 : Fin 1) c) := by
  unfold k0_pay1 k0_pay5
  rw [addf_apply, shapeCast_self, shapeCast_self, sq_product_entry, broadcastTo_1b_ab_apply]
  refine congrArg (· + x9 (ix2 (0 : Fin 1) c)) (Finset.sum_congr rfl fun j _ => congrArg (· * x8 (ix2 j c)) ?_)
  exact slice2_axis1_apply 1024 (k0_pay3 x0 x1 x2 x3 x4 x5) slices_S512x2048_o0_1024_S512x1024 p j (rcol j) rfl

end Cert.KernelIdeal.FusionValue

end
-- ==== Proof.LibConcatCols.lean ====
/-
  Two matrices with the same number of rows laid side by side, read at one entry.

  Joining an [n, a] matrix and an [n, b] matrix along their columns gives an [n, c] matrix whose first a columns are the
  first matrix and whose remaining columns are the second: entry (p, q) is the first matrix's entry (p, q) when q < a, and
  the second matrix's entry (p, q - a) otherwise. Both readings are stated with the piece's own column q' and the
  arithmetic relation between q' and q, so that a caller names the column it wants and proves the relation.
-/
import Idealize.ShloMosaic.Lib.Pipeline.Value
import Idealize.ShloMosaic.Lib.ValueIdx

namespace Cert.ConcatCols

open Idealize.ShloMosaic Idealize.ShloMosaic.ValueIdx

variable {α : Type} {n a b c : Nat}

/-- A column q of the joined matrix that is column q' of the first piece (q' = q) reads the first piece. -/
theorem concat_cols_left (x : (⟨2, ![n, a]⟩ : Shape).Idx → α) (y : (⟨2, ![n, b]⟩ : Shape).Idx → α)
    (h : Shape.Concatenates [⟨2, ![n, a]⟩, ⟨2, ![n, b]⟩] ⟨2, ![n, c]⟩ 1) (p : Fin n) (q : Fin c) (q' : Fin a)
    (hq : q'.val = q.val) :
    concatenate ⟨2, ![n, c]⟩ 1 [⟨⟨2, ![n, a]⟩, x⟩, ⟨⟨2, ![n, b]⟩, y⟩] h (ix2 p q) = x (ix2 p q') :=
  concatenate_pair_apply_left 1 x y h (ix2 p q) rfl (ix2 p q') fun ax =>
    match ax with
    | ⟨0, _⟩ => rfl
    | ⟨1, _⟩ => hq

/-- A column q of the joined matrix that lies a columns past column q' of the second piece (q' + a = q) reads the
    second piece. -/
theorem concat_cols_right (x : (⟨2, ![n, a]⟩ : Shape).Idx → α) (y : (⟨2, ![n, b]⟩ : Shape).Idx → α)
    (h : Shape.Concatenates [⟨2, ![n, a]⟩, ⟨2, ![n, b]⟩] ⟨2, ![n, c]⟩ 1) (p : Fin n) (q : Fin c) (q' : Fin b)
    (hq : q'.val + a = q.val) :
    concatenate ⟨2, ![n, c]⟩ 1 [⟨⟨2, ![n, a]⟩, x⟩, ⟨⟨2, ![n, b]⟩, y⟩] h (ix2 p q) = y (ix2 p q') :=
  concatenate_pair_apply_right 1 x y h (ix2 p q) rfl rfl (ix2 p q')
    (fun ax hax =>
      match ax, hax with
      | ⟨0, _⟩, _ => rfl
      | ⟨1, _⟩, hax => absurd rfl hax)
    hq

end Cert.ConcatCols
-- ==== Proof.StagedOperands.lean ====
/-
  The staged operands of the kernel, as the region finds them, read at one entry of the argument arrays.

  Before the region the host lays the weights out for the body: each square weight is transposed ([out, in] becomes
  [in, out]), each bias vector becomes a one-row matrix, and the value rows 2048 .. 3071 of the two heads' packed
  in-projections are cut out, transposed and laid side by side into one [1024, 2048] matrix (the first head's in columns
  0 .. 1023, the second head's in columns 1024 .. 2047), their biases likewise into one [1, 2048] row. Each lemma reads one
  staged array at an entry and names the argument entry it holds.
-/
import proofs.«140227_j14018773254229_2_alg».proof.Proof.Gen.KernelIdeal.Frame
import proofs.«140227_j14018773254229_2_alg».proof.Proof.Spec
import proofs.«140227_j14018773254229_2_alg».proof.Proof.BodyEntry
import proofs.«140227_j14018773254229_2_alg».proof.Proof.LibConcatCols
import Idealize.ShloMosaic.Lib.ValueLayout
import Idealize.ShloMosaic.Lib.Pipeline.Value
import Idealize.ShloMosaic.Lib.Tactic

noncomputable section

namespace Cert.KernelIdeal.FusionValue

open Cert.KernelIdeal Cert.KernelIdeal.Gen Cert.Fusion Idealize.ShloMosaic Idealize.ShloMosaic.ValueIdx
open Idealize.ShloMosaic.TcCoe Idealize.SL.Sem Idealize.ShloMosaic.Tactic

variable (m : (ℓ : Loc nD τ sig) → Buf (Elt Ideal) ℓ) (c : Dev nD)

/-! ## The square weights, transposed -/

theorem staged_fuse_w_eq :
    (V m c main_v6 : S1024x1024.Idx → EReal)
      = transpose S1024x1024 [1, 0] (m ((c : Thread nD τ).loc main_arg2)) transposes_S1024x1024_S1024x1024_1_0 := by
  dsimp only [Gen.V, Gen.hostOps0]; after_results

/-- The staged fuse weight at (k, j) is the fuse weight at (j, k). -/
theorem staged_fuse_w (k j : Fin 1024) :
    (V m c main_v6 : S1024x1024.Idx → EReal) (ix2 k j) = (m ((c : Thread nD τ).loc main_arg2) : Sq.Idx → EReal) (ix2 j k) := by
  rw [staged_fuse_w_eq]
  exact transpose_ix2_apply _ _ k j

theorem staged_text_w_eq :
    (V m c main_v7 : S1024x1024.Idx → EReal)
      = transpose S1024x1024 [1, 0] (m ((c : Thread nD τ).loc main_arg6)) transposes_S1024x1024_S1024x1024_1_0 := by
  dsimp only [Gen.V, Gen.hostOps0]; after_results

/-- The staged output weight of the first head at (k, j) is that weight at (j, k). -/
theorem staged_text_w (k j : Fin 1024) :
    (V m c main_v7 : S1024x1024.Idx → EReal) (ix2 k j) = (m ((c : Thread nD τ).loc main_arg6) : Sq.Idx → EReal) (ix2 j k) := by
  rw [staged_text_w_eq]
  exact transpose_ix2_apply _ _ k j

theorem staged_image_w_eq :
    (V m c main_v8 : S1024x1024.Idx → EReal)
      = transpose S1024x1024 [1, 0] (m ((c : Thread nD τ).loc main_arg10)) transposes_S1024x1024_S1024x1024_1_0 := by
  dsimp only [Gen.V, Gen.hostOps0]; after_results

/-- The staged output weight of the second head at (k, j) is that weight at (j, k). -/
theorem staged_image_w (k j : Fin 1024) :
    (V m c main_v8 : S1024x1024.Idx → EReal) (ix2 k j) = (m ((c : Thread nD τ).loc main_arg10) : Sq.Idx → EReal) (ix2 j k) := by
  rw [staged_image_w_eq]
  exact transpose_ix2_apply _ _ k j

/-! ## The bias vectors, as one-row matrices -/

theorem staged_fuse_b_eq :
    (V m c main_v13 : S1x1024.Idx → EReal)
      = shapeCast S1x1024 (m ((c : Thread nD τ).loc main_arg3)) shapeCasts_S1024_S1x1024 := by
  dsimp only [Gen.V, Gen.hostOps0]; after_results; rfl

/-- The staged fuse bias at (0, j) is the fuse bias at j. -/
theorem staged_fuse_b (j : Fin 1024) :
    (V m c main_v13 : S1x1024.Idx → EReal) (ix2 (0 : Fin 1) j) = (m ((c : Thread nD τ).loc main_arg3) : Vc.Idx → EReal) (ix1 j) := by
  rw [staged_fuse_b_eq]
  exact shapeCast_a_1a_apply _ _ 0 j

theorem staged_text_b_eq :
    (V m c main_v14 : S1x1024.Idx → EReal)
      = shapeCast S1x1024 (m ((c : Thread nD τ).loc main_arg7)) shapeCasts_S1024_S1x1024 := by
  dsimp only [Gen.V, Gen.hostOps0]; after_results; rfl

/-- The staged output bias of the first head at (0, j) is that bias at j. -/
theorem staged_text_b (j : Fin 1024) :
    (V m c main_v14 : S1x1024.Idx → EReal) (ix2 (0 : Fin 1) j) = (m ((c : Thread nD τ).loc main_arg7) : Vc.Idx → EReal) (ix1 j) := by
  rw [staged_text_b_eq]
  exact shapeCast_a_1a_apply _ _ 0 j

theorem staged_image_b_eq :
    (V m c main_v15 : S1x1024.Idx → EReal)
      = shapeCast S1x1024 (m ((c : Thread nD τ).loc main_arg11)) shapeCasts_S1024_S1x1024 := by
  dsimp only [Gen.V, Gen.hostOps0]; after_results; rfl

/-- The staged output bias of the second head at (0, j) is that bias at j. -/
theorem staged_image_b (j : Fin 1024) :
    (V m c main_v15 : S1x1024.Idx → EReal) (ix2 (0 : Fin 1) j) = (m ((c : Thread nD τ).loc main_arg11) : Vc.Idx → EReal) (ix1 j) := by
  rw [staged_image_b_eq]
  exact shapeCast_a_1a_apply _ _ 0 j

/-! ## The two heads' value rows, side by side -/

theorem staged_value_w_eq :
    (V m c main_v11 : S1024x2048.Idx → EReal)
      = concatenate S1024x2048 1
          [⟨S1024x1024, transpose S1024x1024 [1, 0] (extractStridedSlice S1024x1024 ![2048, 0] (m ((c : Thread nD τ).loc main_arg4)) slices_S3072x1024_S1024x1024_2048_0) transposes_S1024x1024_S1024x1024_1_0⟩,
           ⟨S1024x1024, transpose S1024x1024 [1, 0] (extractStridedSlice S1024x1024 ![2048, 0] (m ((c : Thread nD τ).loc main_arg8)) slices_S3072x1024_S1024x1024_2048_0) transposes_S1024x1024_S1024x1024_1_0⟩]
          concatenates_S1024x1024_S1024x1024_S1024x2048_d1 := by
  dsimp only [Gen.V, Gen.hostOps0]; after_results

/-- A packed in-projection cut to its value rows and transposed, at (k, j), is the packed weight at (2048 + j, k). -/
theorem value_rows_transposed (x : Packed.Idx → EReal) (k j : Fin 1024) :
    transpose S1024x1024 [1, 0] (extractStridedSlice S1024x1024 ![2048, 0] x slices_S3072x1024_S1024x1024_2048_0) transposes_S1024x1024_S1024x1024_1_0 (ix2 k j)
      = x (ix2 (vrow j) k) :=
  (transpose_ix2_apply _ _ k j).trans (slice2_axis0_apply 2048 x slices_S3072x1024_S1024x1024_2048_0 j k (vrow j) rfl)

/-- The staged value weight at (k, j), j in the left half, is the first head's packed weight at (2048 + j, k). -/
theorem staged_value_w_left (k j : Fin 1024) :
    (V m c main_v11 : S1024x2048.Idx → EReal) (ix2 k (lcol j))
      = (m ((c : Thread nD τ).loc main_arg4) : Packed.Idx → EReal) (ix2 (vrow j) k) := by
  rw [staged_value_w_eq]
  exact (Cert.ConcatCols.concat_cols_left _ _ _ k (lcol j) j rfl).trans (value_rows_transposed _ k j)

/-- The staged value weight at (k, 1024 + j) is the second head's packed weight at (2048 + j, k). -/
theorem staged_value_w_right (k j : Fin 1024) :
    (V m c main_v11 : S1024x2048.Idx → EReal) (ix2 k (rcol j))
      = (m ((c : Thread nD τ).loc main_arg8) : Packed.Idx → EReal) (ix2 (vrow j) k) := by
  rw [staged_value_w_eq]
  exact (Cert.ConcatCols.concat_cols_right _ _ _ k (rcol j) j (Nat.add_comm _ _)).trans (value_rows_transposed _ k j)

theorem staged_value_b_eq :
    (V m c main_v12 : S1x2048.Idx → EReal)
      = concatenate S1x2048 1
          [⟨S1x1024, shapeCast S1x1024 (extractStridedSlice S1024 ![2048] (m ((c : Thread nD τ).loc main_arg5)) slices_S3072_S1024_2048) shapeCasts_S1024_S1x1024⟩,
           ⟨S1x1024, shapeCast S1x1024 (extractStridedSlice S1024 ![2048] (m ((c : Thread nD τ).loc main_arg9)) slices_S3072_S1024_2048) shapeCasts_S1024_S1x1024⟩]
          concatenates_S1x1024_S1x1024_S1x2048_d1 := by
  dsimp only [Gen.V, Gen.hostOps0]; after_results; rfl

/-- A packed bias cut to its value entries, as a one-row matrix, at (0, j), is the packed bias at 2048 + j. -/
theorem value_entries_row (x : PackedVc.Idx → EReal) (j : Fin 1024) :
    shapeCast S1x1024 (extractStridedSlice S1024 ![2048] x slices_S3072_S1024_2048) shapeCasts_S1024_S1x1024 (ix2 (0 : Fin 1) j)
      = x (ix1 (vrow j)) :=
  (shapeCast_a_1a_apply _ _ 0 j).trans
    (extractStridedSlice_apply ![2048] x slices_S3072_S1024_2048 (ix1 j) (ix1 (vrow j)) fun a => match a with | ⟨0, _⟩ => rfl)

/-- The staged value bias at (0, j), j in the left half, is the first head's packed bias at 2048 + j. -/
theorem staged_value_b_left (j : Fin 1024) :
    (V m c main_v12 : S1x2048.Idx → EReal) (ix2 (0 : Fin 1) (lcol j))
      = (m ((c : Thread nD τ).loc main_arg5) : PackedVc.Idx → EReal) (ix1 (vrow j)) := by
  rw [staged_value_b_eq]
  exact (Cert.ConcatCols.concat_cols_left _ _ _ (0 : Fin 1) (lcol j) j rfl).trans (value_entries_row _ j)

/-- The staged value bias at (0, 1024 + j) is the second head's packed bias at 2048 + j. -/
theorem staged_value_b_right (j : Fin 1024) :
    (V m c main_v12 : S1x2048.Idx → EReal) (ix2 (0 : Fin 1) (rcol j))
      = (m ((c : Thread nD τ).loc main_arg9) : PackedVc.Idx → EReal) (ix1 (vrow j)) := by
  rw [staged_value_b_eq]
  exact (Cert.ConcatCols.concat_cols_right _ _ _ (0 : Fin 1) (rcol j) j (Nat.add_comm _ _)).trans (value_entries_row _ j)

end Cert.KernelIdeal.FusionValue

end
-- ==== Proof.PointOperands.lean ====
/-
  What a grid point's staged weight and bias blocks hold, as entries of the argument arrays: the block is the whole staged
  array, and the staged array is the host's re-laying of an argument.
-/
import proofs.«140227_j14018773254229_2_alg».proof.Proof.GridBlocks
import proofs.«140227_j14018773254229_2_alg».proof.Proof.StagedOperands

noncomputable section

namespace Cert.KernelIdeal.FusionValue

open Cert.KernelIdeal Cert.KernelIdeal.Gen Cert.Fusion Idealize.ShloMosaic Idealize.ShloMosaic.ValueIdx
open Idealize.ShloMosaic.TcCoe Idealize.SL.Sem

variable (m : (ℓ : Loc nD τ sig) → Buf (Elt Ideal) ℓ) (c : Dev nD) (t : Fin cfg0.N)

/-- The fuse weight as the body sees it, [in, out]. -/
theorem point_fuse_w (k j : Fin 1024) :
    (iblk m c 2 t : Vec Ideal S1024x1024 .f32) (ix2 k j) = (m ((c : Thread nD τ).loc main_arg2) : Sq.Idx → EReal) (ix2 j k) :=
  (whole_2 m c t k j).trans (staged_fuse_w m c k j)

/-- The fuse bias as a one-row matrix. -/
theorem point_fuse_b (j : Fin 1024) :
    (iblk m c 3 t : Vec Ideal S1x1024 .f32) (ix2 (0 : Fin 1) j) = (m ((c : Thread nD τ).loc main_arg3) : Vc.Idx → EReal) (ix1 j) :=
  (whole_3 m c t 0 j).trans (staged_fuse_b m c j)

/-- The left half of the value weight: the first head's value rows, [in, out]. -/
theorem point_value_w_left (k j : Fin 1024) :
    (iblk m c 4 t : Vec Ideal S1024x2048 .f32) (ix2 k (lcol j))
      = (m ((c : Thread nD τ).loc main_arg4) : Packed.Idx → EReal) (ix2 (vrow j) k) :=
  (whole_4 m c t k (lcol j)).trans (staged_value_w_left m c k j)

/-- The right half: the second head's. -/
theorem point_value_w_right (k j : Fin 1024) :
    (iblk m c 4 t : Vec Ideal S1024x2048 .f32) (ix2 k (rcol j))
      = (m ((c : Thread nD τ).loc main_arg8) : Packed.Idx → EReal) (ix2 (vrow j) k) :=
  (whole_4 m c t k (rcol j)).trans (staged_value_w_right m c k j)

/-- The left half of the value bias row: the first head's value entries. -/
theorem point_value_b_left (j : Fin 1024) :
    (iblk m c 5 t : Vec Ideal S1x2048 .f32) (ix2 (0 : Fin 1) (lcol j))
      = (m ((c : Thread nD τ).loc main_arg5) : PackedVc.Idx → EReal) (ix1 (vrow j)) :=
  (whole_5 m c t 0 (lcol j)).trans (staged_value_b_left m c j)

/-- The right half: the second head's. -/
theorem point_value_b_right (j : Fin 1024) :
    (iblk m c 5 t : Vec Ideal S1x2048 .f32) (ix2 (0 : Fin 1) (rcol j))
      = (m ((c : Thread nD τ).loc main_arg9) : PackedVc.Idx → EReal) (ix1 (vrow j)) :=
  (whole_5 m c t 0 (rcol j)).trans (staged_value_b_right m c j)

/-- The first head's output weight, [in, out]. -/
theorem point_text_w (k j : Fin 1024) :
    (iblk m c 6 t : Vec Ideal S1024x1024 .f32) (ix2 k j) = (m ((c : Thread nD τ).loc main_arg6) : Sq.Idx → EReal) (ix2 j k) :=
  (whole_6 m c t k j).trans (staged_text_w m c k j)

/-- Its output bias as a one-row matrix. -/
theorem point_text_b (j : Fin 1024) :
    (iblk m c 7 t : Vec Ideal S1x1024 .f32) (ix2 (0 : Fin 1) j) = (m ((c : Thread nD τ).loc main_arg7) : Vc.Idx → EReal) (ix1 j) :=
  (whole_7 m c t 0 j).trans (staged_text_b m c j)

/-- The second head's output weight, [in, out]. -/
theorem point_image_w (k j : Fin 1024) :
    (iblk m c 8 t : Vec Ideal S1024x1024 .f32) (ix2 k j) = (m ((c : Thread nD τ).loc main_arg10) : Sq.Idx → EReal) (ix2 j k) :=
  (whole_8 m c t k j).trans (staged_image_w m c k j)

/-- Its output bias as a one-row matrix. -/
theorem point_image_b (j : Fin 1024) :
    (iblk m c 9 t : Vec Ideal S1x1024 .f32) (ix2 (0 : Fin 1) j) = (m ((c : Thread nD τ).loc main_arg11) : Vc.Idx → EReal) (ix1 j) :=
  (whole_9 m c t 0 j).trans (staged_image_b m c j)

end Cert.KernelIdeal.FusionValue

end
-- ==== Proof.BlockValues.lean ====
/-
  One block of the kernel body's three results as rows of the specification's arrays.

  The body works on the 512 rows that a grid point stages. Suppose the staged blocks x0, x1 hold rows r(p) of the text
  and image arrays, the staged fuse weight x2 is the fuse weight read transposed, the staged value weight x4 holds in its
  left columns the transposed value rows of the first head's packed in-projection and in its right columns those of the
  second head's, the staged output weights x6, x8 are the output weights read transposed, and each staged bias is its
  vector as a one-row matrix. Then row p of each result block is row r(p) of the specification's array: the fuse layer,
  and the two heads built on it. The hypotheses say exactly this, entry by entry, so that whoever knows how the blocks
  were staged can discharge them.
-/
import proofs.«140227_j14018773254229_2_alg».proof.Proof.BodyEntry
import proofs.«140227_j14018773254229_2_alg».proof.Proof.Spec

noncomputable section

namespace Cert.KernelIdeal.FusionValue

open Cert.KernelIdeal Cert.KernelIdeal.Gen Cert.Fusion Idealize.ShloMosaic Idealize.ShloMosaic.ValueIdx

variable (t im : Rows.Idx → EReal) (w : Sq.Idx → EReal) (b : Vc.Idx → EReal)
variable (x0 x1 : Vec Ideal S512x1024 .f32) (x2 : Vec Ideal S1024x1024 .f32) (x3 : Vec Ideal S1x1024 .f32)
variable (r : Fin 512 → Fin 16384)

/-- Row p of the fuse layer's block is row r(p) of the fuse layer. -/
theorem fused_block
    (h0 : ∀ (p : Fin 512) (k : Fin 1024), x0 (ix2 p k) = t (ix2 (r p) k))
    (h1 : ∀ (p : Fin 512) (k : Fin 1024), x1 (ix2 p k) = im (ix2 (r p) k))
    (h2 : ∀ k c : Fin 1024, x2 (ix2 k c) = w (ix2 c k))
    (h3 : ∀ c : Fin 1024, x3 (ix2 (0 : Fin 1) c) = b (ix1 c))
    (p : Fin 512) (c : Fin 1024) :
    k0_pay2 x0 x1 x2 x3 (ix2 p c) = fused t im w b (ix2 (r p) c) := by
  rw [fused_block_entry, h3, fused_ix2]
  unfold fusedAt
  refine congrArg (· + b (ix1 c)) (Finset.sum_congr rfl fun k _ => ?_)
  rw [h0, h1, h2]

variable (x4 : Vec Ideal S1024x2048 .f32) (x5 : Vec Ideal S1x2048 .f32)

/-- Row p of one half of the value block is row r(p) of that head's value projection of the fuse layer: the half is
    named by its columns `col`, and the staged weight and bias hold there the head's value rows. -/
theorem value_block (inw : Packed.Idx → EReal) (inb : PackedVc.Idx → EReal) (col : Fin 1024 → Fin 2048)
    (h0 : ∀ (p : Fin 512) (k : Fin 1024), x0 (ix2 p k) = t (ix2 (r p) k))
    (h1 : ∀ (p : Fin 512) (k : Fin 1024), x1 (ix2 p k) = im (ix2 (r p) k))
    (h2 : ∀ k c : Fin 1024, x2 (ix2 k c) = w (ix2 c k))
    (h3 : ∀ c : Fin 1024, x3 (ix2 (0 : Fin 1) c) = b (ix1 c))
    (h4 : ∀ k j : Fin 1024, x4 (ix2 k (col j)) = inw (ix2 (vrow j) k))
    (h5 : ∀ j : Fin 1024, x5 (ix2 (0 : Fin 1) (col j)) = inb (ix1 (vrow j)))
    (p : Fin 512) (j : Fin 1024) :
    k0_pay3 x0 x1 x2 x3 x4 x5 (ix2 p (col j)) = value (fused t im w b) inw inb (ix2 (r p) j) := by
  rw [values_block_entry, h5, value_ix2]
  unfold valueAt
  refine congrArg (· + inb (ix1 (vrow j))) (Finset.sum_congr rfl fun k _ => ?_)
  rw [fused_block t im w b x0 x1 x2 x3 r h0 h1 h2 h3, h4]

/-- A head's output projection of a block whose row p is row r(p) of an array v is row r(p) of the head's output
    projection of v, when the staged output weight is the head's read transposed and the staged bias its one-row form. -/
theorem head_block (v : Rows.Idx → EReal) (ow : Sq.Idx → EReal) (ob : Vc.Idx → EReal)
    (z : Fin 512 → Fin 1024 → EReal) (x6 : Vec Ideal S1024x1024 .f32) (x7 : Vec Ideal S1x1024 .f32)
    (hz : ∀ (p : Fin 512) (j : Fin 1024), z p j = v (ix2 (r p) j))
    (h6 : ∀ j c : Fin 1024, x6 (ix2 j c) = ow (ix2 c j))
    (h7 : ∀ c : Fin 1024, x7 (ix2 (0 : Fin 1) c) = ob (ix1 c))
    (p : Fin 512) (c : Fin 1024) :
    (∑ j : Fin 1024, z p j * x6 (ix2 j c)) + x7 (ix2 (0 : Fin 1) c) = head v ow ob (ix2 (r p) c) := by
  rw [h7, head_ix2]
  unfold headAt
  refine congrArg (· + ob (ix1 c)) (Finset.sum_congr rfl fun j _ => ?_)
  rw [hz, h6]

/-- Row p of the first head's block is row r(p) of the head on the fuse layer: it reads the left half of the value
    block. -/
theorem text_block (inw : Packed.Idx → EReal) (inb : PackedVc.Idx → EReal) (ow : Sq.Idx → EReal) (ob : Vc.Idx → EReal)
    (x6 : Vec Ideal S1024x1024 .f32) (x7 : Vec Ideal S1x1024 .f32)
    (h0 : ∀ (p : Fin 512) (k : Fin 1024), x0 (ix2 p k) = t (ix2 (r p) k))
    (h1 : ∀ (p : Fin 512) (k : Fin 1024), x1 (ix2 p k) = im (ix2 (r p) k))
    (h2 : ∀ k c : Fin 1024, x2 (ix2 k c) = w (ix2 c k))
    (h3 : ∀ c : Fin 1024, x3 (ix2 (0 : Fin 1) c) = b (ix1 c))
    (h4 : ∀ k j : Fin 1024, x4 (ix2 k (lcol j)) = inw (ix2 (vrow j) k))
    (h5 : ∀ j : Fin 1024, x5 (ix2 (0 : Fin 1) (lcol j)) = inb (ix1 (vrow j)))
    (h6 : ∀ j c : Fin 1024, x6 (ix2 j c) = ow (ix2 c j))
    (h7 : ∀ c : Fin 1024, x7 (ix2 (0 : Fin 1) c) = ob (ix1 c))
    (p : Fin 512) (c : Fin 1024) :
    k0_pay4 x0 x1 x2 x3 x4 x5 x6 x7 (ix2 p c) = attend (fused t im w b) inw inb ow ob (ix2 (r p) c) := by
  rw [text_block_entry]
  exact head_block r (value (fused t im w b) inw inb) ow ob (fun p j => k0_pay3 x0 x1 x2 x3 x4 x5 (ix2 p (lcol j))) x6 x7
    (fun p j => value_block t im w b x0 x1 x2 x3 r x4 x5 inw inb lcol h0 h1 h2 h3 h4 h5 p j) h6 h7 p c

/-- Row p of the second head's block is row r(p) of the head on the fuse layer: it reads the right half of the value
    block. -/
theorem image_block (inw : Packed.Idx → EReal) (inb : PackedVc.Idx → EReal) (ow : Sq.Idx → EReal) (ob : Vc.Idx → EReal)
    (x8 : Vec Ideal S1024x1024 .f32) (x9 : Vec Ideal S1x1024 .f32)
    (h0 : ∀ (p : Fin 512) (k : Fin 1024), x0 (ix2 p k) = t (ix2 (r p) k))
    (h1 : ∀ (p : Fin 512) (k : Fin 1024), x1 (ix2 p k) = im (ix2 (r p) k))
    (h2 : ∀ k c : Fin 1024, x2 (ix2 k c) = w (ix2 c k))
    (h3 : ∀ c : Fin 1024, x3 (ix2 (0 : Fin 1) c) = b (ix1 c))
    (h4 : ∀ k j : Fin 1024, x4 (ix2 k (rcol j)) = inw (ix2 (vrow j) k))
    (h5 : ∀ j : Fin 1024, x5 (ix2 (0 : Fin 1) (rcol j)) = inb (ix1 (vrow j)))
    (h8 : ∀ j c : Fin 1024, x8 (ix2 j c) = ow (ix2 c j))
    (h9 : ∀ c : Fin 1024, x9 (ix2 (0 : Fin 1) c) = ob (ix1 c))
    (p : Fin 512) (c : Fin 1024) :
    k0_pay1 (k0_pay5 x0 x1 x2 x3 x4 x5 x8) x9 (ix2 p c) = attend (fused t im w b) inw inb ow ob (ix2 (r p) c) := by
  rw [image_block_entry]
  exact head_block r (value (fused t im w b) inw inb) ow ob (fun p j => k0_pay3 x0 x1 x2 x3 x4 x5 (ix2 p (rcol j))) x8 x9
    (fun p j => value_block t im w b x0 x1 x2 x3 r x4 x5 inw inb rcol h0 h1 h2 h3 h4 h5 p j) h8 h9 p c

end Cert.KernelIdeal.FusionValue

end
-- ==== Proof.TextArray.lean ====
/-
  The first result array after the run is the first head on the fuse layer of the argument arrays.

  Point t writes back the head's block of rows 512 t .. 512 t + 511, the 32 blocks tile the 16384 rows, so the array ends
  holding the head's output.
-/
import proofs.«140227_j14018773254229_2_alg».proof.Proof.Gen.KernelIdeal.Value
import proofs.«140227_j14018773254229_2_alg».proof.Proof.PointOperands
import proofs.«140227_j14018773254229_2_alg».proof.Proof.BlockValues

noncomputable section

namespace Cert.KernelIdeal.FusionValue

open Cert.KernelIdeal Cert.KernelIdeal.Gen Cert.Fusion Idealize.ShloMosaic Idealize.ShloMosaic.ValueIdx
open Idealize.ShloMosaic.TcCoe Idealize.SL.Sem
open Idealize.ShloMosaic.Pipeline (Dat)

variable (m : (ℓ : Loc nD τ sig) → Buf (Elt Ideal) ℓ) (c : Dev nD)

/-- What point t writes back to the first result is block t of the first head on the fuse layer. -/
theorem flushed_text (t : Fin cfg0.N) :
    (dats m 0 c).flushed 10 t = ((cfg0.win 10).blk t).view.read (Elt Ideal)
      (attend (fused (m ((c : Thread nD τ).loc main_arg0)) (m ((c : Thread nD τ).loc main_arg1))
          (m ((c : Thread nD τ).loc main_arg2)) (m ((c : Thread nD τ).loc main_arg3)))
        (m ((c : Thread nD τ).loc main_arg4)) (m ((c : Thread nD τ).loc main_arg5))
        (m ((c : Thread nD τ).loc main_arg6)) (m ((c : Thread nD τ).loc main_arg7))) := by
  rw [Value.flushed10]
  unfold out0_10
  rw [View.canon_unit_zero offsets_zero]
  simp only [View.ld_unit_zero (S := S512x1024) offsets_zero, View.ld_unit_zero (S := S1024x1024) offsets_zero,
    View.ld_unit_zero (S := S1x1024) offsets_zero, View.ld_unit_zero (S := S1024x2048) offsets_zero,
    View.ld_unit_zero (S := S1x2048) offsets_zero]
  obtain ⟨-, -, -, -, -, -, -, -, -, -, ⟨e0, e1⟩, -⟩ := index_facts t
  funext j
  rw [View.read_apply]
  have he : ((cfg0.win 10).blk t).view.emb j = ix2 (rowOf t (j 0)) (j 1) := by
    funext a
    apply Fin.ext
    match a with
    | ⟨0, _⟩ => show win0_10.index t (0 : Fin 2) * 512 + 1 * (j 0).val = 512 * t.val + (j 0).val; rw [e0]; omega
    | ⟨1, _⟩ => show win0_10.index t (1 : Fin 2) * 1024 + 1 * (j 1).val = (j 1).val; rw [e1]; omega
  rw [he]
  refine Eq.trans ?_ (text_block (m ((c : Thread nD τ).loc main_arg0)) (m ((c : Thread nD τ).loc main_arg1))
    (m ((c : Thread nD τ).loc main_arg2)) (m ((c : Thread nD τ).loc main_arg3))
    (iblk m c 0 t) (iblk m c 1 t) (iblk m c 2 t) (iblk m c 3 t) (rowOf t) (iblk m c 4 t) (iblk m c 5 t)
    (m ((c : Thread nD τ).loc main_arg4)) (m ((c : Thread nD τ).loc main_arg5))
    (m ((c : Thread nD τ).loc main_arg6)) (m ((c : Thread nD τ).loc main_arg7))
    (iblk m c 6 t) (iblk m c 7 t)
    (text_rows m c t) (image_rows m c t) (point_fuse_w m c t) (point_fuse_b m c t)
    (point_value_w_left m c t) (point_value_b_left m c t) (point_text_w m c t) (point_text_b m c t) (j 0) (j 1))
  exact congrArg _ (eq_ix2 j)

/-- An index of the array is in point t's block iff each coordinate is in the block's range on its axis. -/
theorem mem_block_text (t : Fin cfg0.N) (i : S16384x1024.Idx) :
    i ∈ ((cfg0.win 10).blk t).view.set ↔ ∀ a : Fin 2, win0_10.index t a * S512x1024.size a ≤ (i a).val
      ∧ (i a).val < win0_10.index t a * S512x1024.size a + S512x1024.size a := by
  show i ∈ ((View.whole main_v16_0).slice (win0_10.rect t)).set ↔ _
  rw [View.set_slice_whole, Rect.mem_set_unit]
  exact Iff.rfl

/-- Every index of the first result is in the block of the point that owns its row: row r belongs to point r / 512. -/
theorem cover_text (i : S16384x1024.Idx) :
    ∃ t : Fin cfg0.N, (cfg0.win 10).flush t = true ∧ i ∈ ((cfg0.win 10).blk t).view.set := by
  have hi0 : (i 0).val < 16384 := (i 0).isLt
  have hi1 : (i 1).val < 1024 := (i 1).isLt
  have hN : cfg0.N = 32 := N_0
  let t : Fin cfg0.N := ⟨(i 0).val / 512, by omega⟩
  obtain ⟨-, -, -, -, -, -, -, -, -, -, ⟨e0, e1⟩, -⟩ := index_facts t
  have ht : t.val = (i 0).val / 512 := rfl
  refine ⟨t, flush0_10 t, ?_⟩
  rw [mem_block_text]
  intro a
  match a with
  | ⟨0, _⟩ =>
    show win0_10.index t (0 : Fin 2) * 512 ≤ (i 0).val ∧ (i 0).val < win0_10.index t (0 : Fin 2) * 512 + 512
    rw [e0, ht]; omega
  | ⟨1, _⟩ =>
    show win0_10.index t (1 : Fin 2) * 1024 ≤ (i 1).val ∧ (i 1).val < win0_10.index t (1 : Fin 2) * 1024 + 1024
    rw [e1]; omega

/-- The first result array after the run is the first head on the fuse layer. -/
theorem final_text :
    (dats m 0 c).arrAt 10 cfg0.N
      = attend (fused (m ((c : Thread nD τ).loc main_arg0)) (m ((c : Thread nD τ).loc main_arg1))
          (m ((c : Thread nD τ).loc main_arg2)) (m ((c : Thread nD τ).loc main_arg3)))
        (m ((c : Thread nD τ).loc main_arg4)) (m ((c : Thread nD τ).loc main_arg5))
        (m ((c : Thread nD τ).loc main_arg6)) (m ((c : Thread nD τ).loc main_arg7)) :=
  (dats m 0 c).arrAt_eq_of_cover 10 _ (fun t _ => flushed_text m c t) cover_text

end Cert.KernelIdeal.FusionValue

end
-- ==== Proof.ImageArray.lean ====
/-
  The second result array after the run is the second head on the fuse layer of the argument arrays.

  Point t writes back the head's block of rows 512 t .. 512 t + 511, the 32 blocks tile the 16384 rows, so the array ends
  holding the head's output.
-/
import proofs.«140227_j14018773254229_2_alg».proof.Proof.Gen.KernelIdeal.Value
import proofs.«140227_j14018773254229_2_alg».proof.Proof.PointOperands
import proofs.«140227_j14018773254229_2_alg».proof.Proof.BlockValues

noncomputable section

namespace Cert.KernelIdeal.FusionValue

open Cert.KernelIdeal Cert.KernelIdeal.Gen Cert.Fusion Idealize.ShloMosaic Idealize.ShloMosaic.ValueIdx
open Idealize.ShloMosaic.TcCoe Idealize.SL.Sem
open Idealize.ShloMosaic.Pipeline (Dat)

variable (m : (ℓ : Loc nD τ sig) → Buf (Elt Ideal) ℓ) (c : Dev nD)

/-- What point t writes back to the second result is block t of the second head on the fuse layer. -/
theorem flushed_image (t : Fin cfg0.N) :
    (dats m 0 c).flushed 11 t = ((cfg0.win 11).blk t).view.read (Elt Ideal)
      (attend (fused (m ((c : Thread nD τ).loc main_arg0)) (m ((c : Thread nD τ).loc main_arg1))
          (m ((c : Thread nD τ).loc main_arg2)) (m ((c : Thread nD τ).loc main_arg3)))
        (m ((c : Thread nD τ).loc main_arg8)) (m ((c : Thread nD τ).loc main_arg9))
        (m ((c : Thread nD τ).loc main_arg10)) (m ((c : Thread nD τ).loc main_arg11))) := by
  rw [Value.flushed11]
  unfold out0_11
  rw [View.canon_unit_zero offsets_zero]
  simp only [View.ld_unit_zero (S := S512x1024) offsets_zero, View.ld_unit_zero (S := S1024x1024) offsets_zero,
    View.ld_unit_zero (S := S1x1024) offsets_zero, View.ld_unit_zero (S := S1024x2048) offsets_zero,
    View.ld_unit_zero (S := S1x2048) offsets_zero]
  obtain ⟨-, -, -, -, -, -, -, -, -, -, -, ⟨e0, e1⟩, -⟩ := index_facts t
  funext j
  rw [View.read_apply]
  have he : ((cfg0.win 11).blk t).view.emb j = ix2 (rowOf t (j 0)) (j 1) := by
    funext a
    apply Fin.ext
    match a with
    | ⟨0, _⟩ => show win0_11.index t (0 : Fin 2) * 512 + 1 * (j 0).val = 512 * t.val + (j 0).val; rw [e0]; omega
    | ⟨1, _⟩ => show win0_11.index t (1 : Fin 2) * 1024 + 1 * (j 1).val = (j 1).val; rw [e1]; omega
  rw [he]
  refine Eq.trans ?_ (image_block (m ((c : Thread nD τ).loc main_arg0)) (m ((c : Thread nD τ).loc main_arg1))
    (m ((c : Thread nD τ).loc main_arg2)) (m ((c : Thread nD τ).loc main_arg3))
    (iblk m c 0 t) (iblk m c 1 t) (iblk m c 2 t) (iblk m c 3 t) (rowOf t) (iblk m c 4 t) (iblk m c 5 t)
    (m ((c : Thread nD τ).loc main_arg8)) (m ((c : Thread nD τ).loc main_arg9))
    (m ((c : Thread nD τ).loc main_arg10)) (m ((c : Thread nD τ).loc main_arg11))
    (iblk m c 8 t) (iblk m c 9 t)
    (text_rows m c t) (image_rows m c t) (point_fuse_w m c t) (point_fuse_b m c t)
    (point_value_w_right m c t) (point_value_b_right m c t) (point_image_w m c t) (point_image_b m c t) (j 0) (j 1))
  exact congrArg _ (eq_ix2 j)

/-- An index of the array is in point t's block iff each coordinate is in the block's range on its axis. -/
theorem mem_block_image (t : Fin cfg0.N) (i : S16384x1024.Idx) :
    i ∈ ((cfg0.win 11).blk t).view.set ↔ ∀ a : Fin 2, win0_11.index t a * S512x1024.size a ≤ (i a).val
      ∧ (i a).val < win0_11.index t a * S512x1024.size a + S512x1024.size a := by
  show i ∈ ((View.whole main_v16_1).slice (win0_11.rect t)).set ↔ _
  rw [View.set_slice_whole, Rect.mem_set_unit]
  exact Iff.rfl

/-- Every index of the second result is in the block of the point that owns its row: row r belongs to point r / 512. -/
theorem cover_image (i : S16384x1024.Idx) :
    ∃ t : Fin cfg0.N, (cfg0.win 11).flush t = true ∧ i ∈ ((cfg0.win 11).blk t).view.set := by
  have hi0 : (i 0).val < 16384 := (i 0).isLt
  have hi1 : (i 1).val < 1024 := (i 1).isLt
  have hN : cfg0.N = 32 := N_0
  let t : Fin cfg0.N := ⟨(i 0).val / 512, by omega⟩
  obtain ⟨-, -, -, -, -, -, -, -, -, -, -, ⟨e0, e1⟩, -⟩ := index_facts t
  have ht : t.val = (i 0).val / 512 := rfl
  refine ⟨t, flush0_11 t, ?_⟩
  rw [mem_block_image]
  intro a
  match a with
  | ⟨0, _⟩ =>
    show win0_11.index t (0 : Fin 2) * 512 ≤ (i 0).val ∧ (i 0).val < win0_11.index t (0 : Fin 2) * 512 + 512
    rw [e0, ht]; omega
  | ⟨1, _⟩ =>
    show win0_11.index t (1 : Fin 2) * 1024 ≤ (i 1).val ∧ (i 1).val < win0_11.index t (1 : Fin 2) * 1024 + 1024
    rw [e1]; omega

/-- The second result array after the run is the second head on the fuse layer. -/
theorem final_image :
    (dats m 0 c).arrAt 11 cfg0.N
      = attend (fused (m ((c : Thread nD τ).loc main_arg0)) (m ((c : Thread nD τ).loc main_arg1))
          (m ((c : Thread nD τ).loc main_arg2)) (m ((c : Thread nD τ).loc main_arg3)))
        (m ((c : Thread nD τ).loc main_arg8)) (m ((c : Thread nD τ).loc main_arg9))
        (m ((c : Thread nD τ).loc main_arg10)) (m ((c : Thread nD τ).loc main_arg11)) :=
  (dats m 0 c).arrAt_eq_of_cover 11 _ (fun t _ => flushed_image m c t) cover_image

end Cert.KernelIdeal.FusionValue

end
-- ==== Proof.FusedArray.lean ====
/-
  The third result array after the run is the fuse layer of the argument arrays.

  Point t writes back the fuse layer's block of rows 512 t .. 512 t + 511, the 32 blocks tile the 16384 rows, so the array
  ends holding the fuse layer.
-/
import proofs.«140227_j14018773254229_2_alg».proof.Proof.Gen.KernelIdeal.Value
import proofs.«140227_j14018773254229_2_alg».proof.Proof.PointOperands
import proofs.«140227_j14018773254229_2_alg».proof.Proof.BlockValues

noncomputable section

namespace Cert.KernelIdeal.FusionValue

open Cert.KernelIdeal Cert.KernelIdeal.Gen Cert.Fusion Idealize.ShloMosaic Idealize.ShloMosaic.ValueIdx
open Idealize.ShloMosaic.TcCoe Idealize.SL.Sem
open Idealize.ShloMosaic.Pipeline (Dat)

variable (m : (ℓ : Loc nD τ sig) → Buf (Elt Ideal) ℓ) (c : Dev nD)

/-- What point t writes back to the third result is block t of the fuse layer. -/
theorem flushed_fused (t : Fin cfg0.N) :
    (dats m 0 c).flushed 12 t = ((cfg0.win 12).blk t).view.read (Elt Ideal)
      (fused (m ((c : Thread nD τ).loc main_arg0)) (m ((c : Thread nD τ).loc main_arg1))
        (m ((c : Thread nD τ).loc main_arg2)) (m ((c : Thread nD τ).loc main_arg3))) := by
  rw [Value.flushed12]
  unfold out0_12
  rw [View.canon_unit_zero offsets_zero]
  simp only [View.ld_unit_zero (S := S512x1024) offsets_zero, View.ld_unit_zero (S := S1024x1024) offsets_zero,
    View.ld_unit_zero (S := S1x1024) offsets_zero]
  obtain ⟨-, -, -, -, -, -, -, -, -, -, -, -, ⟨e0, e1⟩⟩ := index_facts t
  funext j
  rw [View.read_apply]
  have he : ((cfg0.win 12).blk t).view.emb j = ix2 (rowOf t (j 0)) (j 1) := by
    funext a
    apply Fin.ext
    match a with
    | ⟨0, _⟩ => show win0_12.index t (0 : Fin 2) * 512 + 1 * (j 0).val = 512 * t.val + (j 0).val; rw [e0]; omega
    | ⟨1, _⟩ => show win0_12.index t (1 : Fin 2) * 1024 + 1 * (j 1).val = (j 1).val; rw [e1]; omega
  rw [he]
  refine Eq.trans ?_ (fused_block (m ((c : Thread nD τ).loc main_arg0)) (m ((c : Thread nD τ).loc main_arg1))
    (m ((c : Thread nD τ).loc main_arg2)) (m ((c : Thread nD τ).loc main_arg3))
    (iblk m c 0 t) (iblk m c 1 t) (iblk m c 2 t) (iblk m c 3 t) (rowOf t)
    (text_rows m c t) (image_rows m c t) (point_fuse_w m c t) (point_fuse_b m c t) (j 0) (j 1))
  exact congrArg _ (eq_ix2 j)

/-- An index of the array is in point t's block iff each coordinate is in the block's range on its axis. -/
theorem mem_block_fused (t : Fin cfg0.N) (i : S16384x1024.Idx) :
    i ∈ ((cfg0.win 12).blk t).view.set ↔ ∀ a : Fin 2, win0_12.index t a * S512x1024.size a ≤ (i a).val
      ∧ (i a).val < win0_12.index t a * S512x1024.size a + S512x1024.size a := by
  show i ∈ ((View.whole main_v16_2).slice (win0_12.rect t)).set ↔ _
  rw [View.set_slice_whole, Rect.mem_set_unit]
  exact Iff.rfl

/-- Every index of the third result is in the block of the point that owns its row: row r belongs to point r / 512. -/
theorem cover_fused (i : S16384x1024.Idx) :
    ∃ t : Fin cfg0.N, (cfg0.win 12).flush t = true ∧ i ∈ ((cfg0.win 12).blk t).view.set := by
  have hi0 : (i 0).val < 16384 := (i 0).isLt
  have hi1 : (i 1).val < 1024 := (i 1).isLt
  have hN : cfg0.N = 32 := N_0
  let t : Fin cfg0.N := ⟨(i 0).val / 512, by omega⟩
  obtain ⟨-, -, -, -, -, -, -, -, -, -, -, -, ⟨e0, e1⟩⟩ := index_facts t
  have ht : t.val = (i 0).val / 512 := rfl
  refine ⟨t, flush0_12 t, ?_⟩
  rw [mem_block_fused]
  intro a
  match a with
  | ⟨0, _⟩ =>
    show win0_12.index t (0 : Fin 2) * 512 ≤ (i 0).val ∧ (i 0).val < win0_12.index t (0 : Fin 2) * 512 + 512
    rw [e0, ht]; omega
  | ⟨1, _⟩ =>
    show win0_12.index t (1 : Fin 2) * 1024 ≤ (i 1).val ∧ (i 1).val < win0_12.index t (1 : Fin 2) * 1024 + 1024
    rw [e1]; omega

/-- The third result array after the run is the fuse layer. -/
theorem final_fused :
    (dats m 0 c).arrAt 12 cfg0.N
      = fused (m ((c : Thread nD τ).loc main_arg0)) (m ((c : Thread nD τ).loc main_arg1))
          (m ((c : Thread nD τ).loc main_arg2)) (m ((c : Thread nD τ).loc main_arg3)) :=
  (dats m 0 c).arrAt_eq_of_cover 12 _ (fun t _ => flushed_fused m c t) cover_fused

end Cert.KernelIdeal.FusionValue

end
-- ==== Proof.KernelRun.lean ====
/-
  The kernel's run, read: after it the three result arrays hold the two heads on the fuse layer and the fuse layer itself,
  as functions of the twelve argument arrays, and the arguments are unchanged.
-/
import proofs.«140227_j14018773254229_2_alg».proof.Proof.Gen.KernelIdeal.Value
import proofs.«140227_j14018773254229_2_alg».proof.Proof.TextArray
import proofs.«140227_j14018773254229_2_alg».proof.Proof.ImageArray
import proofs.«140227_j14018773254229_2_alg».proof.Proof.FusedArray

noncomputable section

namespace Cert.KernelIdeal.FusionValue

open Cert.KernelIdeal Cert.KernelIdeal.Gen Cert.Fusion Idealize.ShloMosaic Idealize.ShloMosaic.TcCoe Idealize.SL.Sem

/-- Every weakly fair execution of the kernel program terminates with the first result at the first head on the fuse
    layer, the second result at the second head on it, the third result at the fuse layer, and every argument as
    launched. -/
theorem run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c : Thread nD τ).loc main_v16_0) = attend (fused (m ((c : Thread nD τ).loc main_arg0)) (m ((c : Thread nD τ).loc main_arg1)) (m ((c : Thread nD τ).loc main_arg2)) (m ((c : Thread nD τ).loc main_arg3))) (m ((c : Thread nD τ).loc main_arg4)) (m ((c : Thread nD τ).loc main_arg5)) (m ((c : Thread nD τ).loc main_arg6)) (m ((c : Thread nD τ).loc main_arg7))
      ∧ r.2.mem ((c : Thread nD τ).loc main_v16_1) = attend (fused (m ((c : Thread nD τ).loc main_arg0)) (m ((c : Thread nD τ).loc main_arg1)) (m ((c : Thread nD τ).loc main_arg2)) (m ((c : Thread nD τ).loc main_arg3))) (m ((c : Thread nD τ).loc main_arg8)) (m ((c : Thread nD τ).loc main_arg9)) (m ((c : Thread nD τ).loc main_arg10)) (m ((c : Thread nD τ).loc main_arg11))
      ∧ r.2.mem ((c : Thread nD τ).loc main_v16_2) = fused (m ((c : Thread nD τ).loc main_arg0)) (m ((c : Thread nD τ).loc main_arg1)) (m ((c : Thread nD τ).loc main_arg2)) (m ((c : Thread nD τ).loc main_arg3))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11) :=
  (θ_run defs _ _).mono (fun r h c => ⟨(h c).1.trans (final_text m c), (h c).2.1.trans (final_image m c),
      (h c).2.2.1.trans (final_fused m c), (h c).2.2.2⟩)
    (Value.run_blocks m ρ)

end Cert.KernelIdeal.FusionValue

end
-- ==== Proof.RefLayersText.lean ====
/-
  The reference's three affine layers of the text head, each as the specification's function of its operands.

  The reference computes a layer as a transpose of the stored [out, in] weight followed by a plain product, and a bias
  as a vector broadcast first to a row and then down the batch. Read at an entry (r, c) these are: the product's sum over
  k of the left operand at (r, k) times the weight at (c, k), plus the bias at c. The value projection uses the last third
  of the packed rows, rows 2048 + j. Nothing here needs the entries to be finite: only indices are moved.
-/
import proofs.«140227_j14018773254229_2_alg».proof.Proof.Gen.ReferenceIdeal.Read
import proofs.«140227_j14018773254229_2_alg».proof.Proof.Spec

noncomputable section

namespace Cert.ReferenceIdeal.Layers

open Cert.ReferenceIdeal Cert.ReferenceIdeal.Gen Cert.ReferenceIdeal.Read Cert.Fusion
open Idealize.ShloMosaic Idealize.ShloMosaic.ValueIdx

/-- The fuse layer: (text + image) times the transposed fuse weight, plus the fuse bias. -/
theorem fused_eq (x0 x1 : (⟨S16384x1024, .f32⟩ : BufTy).Contents (Elt Ideal)) (x2 : (⟨S1024x1024, .f32⟩ : BufTy).Contents (Elt Ideal)) (x3 : (⟨S1024, .f32⟩ : BufTy).Contents (Elt Ideal)) :
    val_main_v5 (F := Ideal) x0 x1 x2 x3 = fused x0 x1 x2 x3 := by
  funext i
  rw [val_main_v5_apply, val_main_v2_apply, val_main_v4_apply, val_main_v3_apply]
  simp only [val_main_v0_apply, val_main_v1_apply]
  have e1 : ∀ k : Fin 1024, lidx_main_v2 i k = ix2 (i 0) k := fun k => funext fun a => by
    match a with | ⟨0, _⟩ => rfl | ⟨1, _⟩ => rfl
  have e2 : ∀ k : Fin 1024, idx_main_v1 (ridx_main_v2 i k) = ix2 (i 1) k := fun k => funext fun a => by
    match a with | ⟨0, _⟩ => rfl | ⟨1, _⟩ => rfl
  have e3 : idx_main_v3 (idx_main_v4 i) = ix1 (i 1) := funext fun a => by
    match a with | ⟨0, _⟩ => rfl
  simp only [e1, e2, e3]
  rfl

/-- The text head's value projection of the fused rows: rows 2048 + j of the packed weight and bias. -/
theorem value_eq (x0 x1 : (⟨S16384x1024, .f32⟩ : BufTy).Contents (Elt Ideal)) (x2 : (⟨S1024x1024, .f32⟩ : BufTy).Contents (Elt Ideal)) (x3 : (⟨S1024, .f32⟩ : BufTy).Contents (Elt Ideal)) (x4 : (⟨S3072x1024, .f32⟩ : BufTy).Contents (Elt Ideal)) (x5 : (⟨S3072, .f32⟩ : BufTy).Contents (Elt Ideal)) :
    val_main_v28 (F := Ideal) x0 x1 x2 x3 x4 x5 = value (val_main_v5 (F := Ideal) x0 x1 x2 x3) x4 x5 := by
  funext i
  rw [val_main_v28_apply, val_main_v25_apply, val_main_v27_apply, val_main_v26_apply, val_main_v11_apply]
  simp only [val_main_v24_apply, val_main_v8_apply]
  have e1 : ∀ k : Fin 1024, lidx_main_v25 i k = ix2 (i 0) k := fun k => funext fun a => by
    match a with | ⟨0, _⟩ => rfl | ⟨1, _⟩ => rfl
  have e2 : ∀ k : Fin 1024, idx_main_v8 (idx_main_v24 (ridx_main_v25 i k)) = ix2 (vrow (i 1)) k := fun k => funext fun a => by
    match a with | ⟨0, _⟩ => rfl | ⟨1, _⟩ => rfl
  have e3 : idx_main_v11 (idx_main_v26 (idx_main_v27 i)) = ix1 (vrow (i 1)) := funext fun a => by
    match a with | ⟨0, _⟩ => rfl
  simp only [e1, e2, e3]
  rfl

/-- The text head's output projection of whatever the attention step hands it. -/
theorem head_eq (x0 x1 : (⟨S16384x1024, .f32⟩ : BufTy).Contents (Elt Ideal)) (x2 : (⟨S1024x1024, .f32⟩ : BufTy).Contents (Elt Ideal)) (x3 : (⟨S1024, .f32⟩ : BufTy).Contents (Elt Ideal)) (x4 : (⟨S3072x1024, .f32⟩ : BufTy).Contents (Elt Ideal)) (x5 : (⟨S3072, .f32⟩ : BufTy).Contents (Elt Ideal))
    (x6 : (⟨S1024x1024, .f32⟩ : BufTy).Contents (Elt Ideal)) (x7 : (⟨S1024, .f32⟩ : BufTy).Contents (Elt Ideal)) :
    val_main_v52 (F := Ideal) x0 x1 x2 x3 x4 x5 x6 x7 = head (val_main_v47 (F := Ideal) x0 x1 x2 x3 x4 x5) x6 x7 := by
  funext i
  rw [val_main_v52_apply, val_main_v49_apply, val_main_v51_apply, val_main_v50_apply]
  simp only [val_main_v48_apply]
  have e1 : ∀ k : Fin 1024, lidx_main_v49 i k = ix2 (i 0) k := fun k => funext fun a => by
    match a with | ⟨0, _⟩ => rfl | ⟨1, _⟩ => rfl
  have e2 : ∀ k : Fin 1024, idx_main_v48 (ridx_main_v49 i k) = ix2 (i 1) k := fun k => funext fun a => by
    match a with | ⟨0, _⟩ => rfl | ⟨1, _⟩ => rfl
  have e3 : idx_main_v50 (idx_main_v51 i) = ix1 (i 1) := funext fun a => by
    match a with | ⟨0, _⟩ => rfl
  simp only [e1, e2, e3]
  rfl

end Cert.ReferenceIdeal.Layers

end
-- ==== Proof.LibFiniteValues.lean ====
/-
  Finite values over the extended reals. The ideal instance reads floats as extended reals, and the laws that join two
  arrangements of one computation (distributivity, cancelling a mean) hold only away from the infinities; a proof
  therefore carries "this entry is a real number" through a program. This file has the closure facts: sums, differences,
  products, finite sums, the maximum and a quotient by a nonzero real of real entries are real; the logistic function
  and the hyperbolic tangent are real at EVERY extended real (their limits at the infinities are 0, 1 and -1, 1); the
  reciprocal square root is real at a positive real.
-/
import Idealize.ShloMosaic.PureOps.Ideal
import Mathlib.Tactic

noncomputable section

namespace Cert.FiniteValues

open Idealize.ShloMosaic

/-- An extended real that is a real number. -/
def IsReal (x : EReal) : Prop := ∃ r : ℝ, x = (r : EReal)

theorem isReal_coe (r : ℝ) : IsReal (r : EReal) := ⟨r, rfl⟩
theorem isReal_zero : IsReal (0 : EReal) := ⟨0, rfl⟩
theorem isReal_one : IsReal (1 : EReal) := ⟨1, rfl⟩

theorem IsReal.add {x y : EReal} (hx : IsReal x) (hy : IsReal y) : IsReal (x + y) := by
  obtain ⟨a, rfl⟩ := hx; obtain ⟨b, rfl⟩ := hy; exact ⟨a + b, (EReal.coe_add a b).symm⟩
theorem IsReal.sub {x y : EReal} (hx : IsReal x) (hy : IsReal y) : IsReal (x - y) := by
  obtain ⟨a, rfl⟩ := hx; obtain ⟨b, rfl⟩ := hy; exact ⟨a - b, (EReal.coe_sub a b).symm⟩
theorem IsReal.mul {x y : EReal} (hx : IsReal x) (hy : IsReal y) : IsReal (x * y) := by
  obtain ⟨a, rfl⟩ := hx; obtain ⟨b, rfl⟩ := hy; exact ⟨a * b, (EReal.coe_mul a b).symm⟩
theorem IsReal.neg {x : EReal} (hx : IsReal x) : IsReal (-x) := by
  obtain ⟨a, rfl⟩ := hx; exact ⟨-a, (EReal.coe_neg a).symm⟩
theorem IsReal.max {x y : EReal} (hx : IsReal x) (hy : IsReal y) : IsReal (max x y) := by
  rcases le_total x y with h | h
  · rwa [max_eq_right h]
  · rwa [max_eq_left h]

/-- A finite sum of reals is real. -/
theorem isReal_sum {ι : Type*} (s : Finset ι) (f : ι → EReal) (h : ∀ i ∈ s, IsReal (f i)) : IsReal (∑ i ∈ s, f i) := by
  classical
  induction s using Finset.induction_on with
  | empty => simpa using isReal_zero
  | insert a s ha ih =>
    rw [Finset.sum_insert ha]
    exact (h a (Finset.mem_insert_self a s)).add (ih fun i hi => h i (Finset.mem_insert_of_mem hi))

/-- The ideal quotient of a real by a nonzero real is real. -/
theorem IsReal.div_coe {x : EReal} (hx : IsReal x) {n : ℝ} (hn : n ≠ 0) : IsReal (Ideal.div x (n : EReal)) := by
  obtain ⟨a, rfl⟩ := hx
  exact ⟨a * (1 / n), by rw [Ideal.div_coe hn, ← EReal.coe_mul]⟩

/-- The logistic function is real everywhere: 0 at -∞, 1 at +∞, 1 / (1 + e^(-r)) at a real r. -/
theorem isReal_logistic (x : EReal) : IsReal (Ideal.logistic x) := by
  induction x using EReal.rec with
  | bot => rw [Ideal.logistic_bot]; exact isReal_zero
  | coe r => rw [Ideal.logistic_coe]; exact ⟨_, rfl⟩
  | top => rw [Ideal.logistic_top]; exact isReal_one

/-- The hyperbolic tangent is real everywhere: -1 at -∞, 1 at +∞. -/
theorem isReal_tanh (x : EReal) : IsReal (Ideal.tanh x) := by
  induction x using EReal.rec with
  | bot => rw [Ideal.tanh_bot]; exact isReal_one.neg
  | coe r => rw [Ideal.tanh_coe]; exact ⟨_, rfl⟩
  | top => rw [Ideal.tanh_top]; exact isReal_one

/-- The reciprocal square root of a positive real is real (and positive). -/
theorem isReal_rsqrt_pos {r : ℝ} (hr : 0 < r) : IsReal (Ideal.rsqrt (r : EReal)) := by
  rw [Ideal.rsqrt_coe, if_neg (not_lt.mpr hr.le), if_neg (ne_of_gt hr)]
  exact ⟨_, rfl⟩

/-- A not-negative real plus a positive real literal is a positive real: the argument a variance-plus-epsilon hands the
    reciprocal square root. -/
theorem isReal_rsqrt_add_pos {v e : ℝ} (hv : 0 ≤ v) (he : 0 < e) : IsReal (Ideal.rsqrt ((v : EReal) + (e : EReal))) := by
  rw [← EReal.coe_add]; exact isReal_rsqrt_pos (by linarith)

end Cert.FiniteValues

end
-- ==== Proof.Consts.lean ====
/-
  The float constants of the reference and of the precondition, as the extended reals their words denote:
  +infinity (the bound of the precondition's comparison), -infinity (the initial value of the two maxima in the
  reference's softmax), and 128 (the head width under the square root that scales the scores). The zero word is the
  library's. They are stated in this one module so that the words are unfolded once.
-/
import Idealize.ShloMosaic.PureOps.Ideal
import Idealize.ShloMosaic.PureOps.Ideal.Laws

noncomputable section

namespace Cert.Consts

open Idealize.ShloMosaic

/-- The f32 word of +infinity is the top of the extended reals. -/
theorem ofBits_posInf : Ideal.ofBits .f32 0x7F800000#32 = (⊤ : EReal) := by
  simp [Ideal.ofBits, Ideal.ieee]

/-- The f32 word of -infinity is the bottom of the extended reals. -/
theorem ofBits_negInf : Ideal.ofBits .f32 0xFF800000#32 = (⊥ : EReal) := by
  simp [Ideal.ofBits, Ideal.ieee]

/-- The f32 word of 128.0 is the real 128. -/
theorem ofBits_128 : Ideal.ofBits .f32 0x43000000#32 = ((128 : ℝ) : EReal) := by
  simp [Ideal.ofBits, Ideal.ieee, -EReal.coe_mul]; norm_num

/-- The square root of 128 on the extended reals is the real square root, which is not zero. -/
theorem sqrt_128 : Ideal.sqrt (Ideal.ofBits .f32 0x43000000#32) = ((Real.sqrt 128 : ℝ) : EReal) := by
  rw [ofBits_128, Ideal.sqrt_coe, if_neg (by norm_num)]

theorem sqrt_128_ne_zero : Real.sqrt 128 ≠ 0 := by
  have h : (0 : ℝ) < Real.sqrt 128 := Real.sqrt_pos.mpr (by norm_num)
  exact ne_of_gt h

end Cert.Consts

end
-- ==== Proof.LibUnitSoftmax.lean ====
/-
  A softmax over an axis of length one is 1 at a real score.

  jax.nn.softmax of a score s along an axis that holds s alone computes m = max over the axis from -infinity, then
  exp (s - m) divided by the sum over the axis, from 0, of exp (s - m). Two facts carry it on the extended reals:
  a maximum-reduction over an axis of length one, from an initial value b, is max (the one entry) b; and for a REAL s,
  exp (s - s) / (0 + exp (s - s)) = exp 0 / (0 + exp 0) = 1 / 1 = 1. At s = +infinity or -infinity the difference s - s is
  not 0, so the second fact is stated at a real number only.
-/
import Idealize.ShloMosaic.PureOps.Reduce
import Idealize.ShloMosaic.PureOps.Ideal
import Idealize.ShloMosaic.PureOps.Ideal.Laws
import Mathlib.Tactic

noncomputable section

namespace Cert.UnitSoftmax

open Idealize.ShloMosaic

/-- A maximum folded over an axis of length one, from the initial value b, is the maximum of the one entry and b. -/
theorem fold_maximumf_one {n : ℕ} (hn : n = 1) (b : EReal) (f : Fin n → EReal) :
    (Finset.univ : Finset (Fin n)).fold (FloatOps.maximumf (F := Ideal) (φ := .f32)) b f = max (f ⟨0, by omega⟩) b := by
  subst hn
  rw [Finset.univ_unique, Finset.fold_singleton]
  rfl

/-- A host maximum-reduction over ONE axis of length one, from the initial value, read at an index, is the maximum of the
    one entry on that axis and the initial value. -/
theorem reduce_max_unit {s t u : Shape} {a : Fin s.rank} (x : s.Idx → EReal) (init : u.Idx → EReal)
    (h' : s.ReducesTo [a] t) (h : s.Reduces [a] t) (hu : 0 < u.numel) (hn : s.size a = 1) (j : t.Idx) :
    Host.reduce (FloatOps.maximumf (F := Ideal) (φ := .f32)) x init h' hu j
      = max (x (h.lift j ⟨0, by omega⟩)) (init (Shape.Idx.first hu)) := by
  rw [Host.reduce_eq_fold_single _ x init h' h hu j]
  exact fold_maximumf_one hn _ _

/-- The softmax over one real score r: exp (r - r) / (0 + exp (r - r)) = 1. -/
theorem softmax_coe (r : ℝ) :
    Ideal.div (Ideal.exp ((r : EReal) - (r : EReal))) (0 + Ideal.exp ((r : EReal) - (r : EReal))) = 1 := by
  have e0 : ((r : EReal) - (r : EReal)) = ((0 : ℝ) : EReal) := by rw [← EReal.coe_sub, sub_self]
  rw [e0, Ideal.exp_coe, Real.exp_zero, zero_add]
  have e1 : Ideal.div (((1 : ℝ) : EReal)) (((1 : ℝ) : EReal)) = ((1 : ℝ) : EReal) * (((1 / 1 : ℝ)) : EReal) :=
    Ideal.div_coe (by norm_num) _
  rw [e1, ← EReal.coe_mul]
  norm_num

end Cert.UnitSoftmax

end
-- ==== Proof.RefWeightText.lean ====
/-
  The text head's attention weight is 1.

  Each head attends over ONE key, so its softmax is taken over an axis of length one. With s the head's score at a row,
  the reference computes m = max(-infinity, max(-infinity, s)) = s, then e = exp(s - m), then e / (0 + e).
  If s is a real number then s - s = 0, exp 0 = 1, 0 + 1 = 1 and 1 / 1 = 1. (At an infinite score the difference
  s - s is not 0 on the extended reals, which is why the entries must be finite.)
  The score is a real number because it is a quotient, by the nonzero real sqrt 128, of a finite sum of products of the
  query and key entries, which are finite sums of products of real entries plus real biases.
  So the weighted values are the values themselves, and undoing the split into heads gives back the value projection.
-/
import proofs.«140227_j14018773254229_2_alg».proof.Proof.Gen.ReferenceIdeal.Read
import proofs.«140227_j14018773254229_2_alg».proof.Proof.RefLayersText
import proofs.«140227_j14018773254229_2_alg».proof.Proof.LibFiniteValues
import proofs.«140227_j14018773254229_2_alg».proof.Proof.Consts
import proofs.«140227_j14018773254229_2_alg».proof.Proof.LibUnitSoftmax
import Idealize.ShloMosaic.PureOps.Reduce
import Idealize.ShloMosaic.PureOps.Ideal.Laws

noncomputable section

namespace Cert.ReferenceIdeal.WeightText

open Cert.ReferenceIdeal Cert.ReferenceIdeal.Gen Cert.ReferenceIdeal.Read Cert.Fusion Cert.FiniteValues
open Idealize.ShloMosaic Idealize.ShloMosaic.ValueIdx
open Cert.UnitSoftmax (reduce_max_unit)

/-- The softmax over one real score is 1. -/
theorem softmax_one (s : EReal) (hs : IsReal s) : Ideal.div (Ideal.exp (s - s)) (0 + Ideal.exp (s - s)) = 1 := by
  obtain ⟨r, rfl⟩ := hs
  exact Cert.UnitSoftmax.softmax_coe r

section
variable (x0 x1 : (⟨S16384x1024, .f32⟩ : BufTy).Contents (Elt Ideal)) (x2 : (⟨S1024x1024, .f32⟩ : BufTy).Contents (Elt Ideal)) (x3 : (⟨S1024, .f32⟩ : BufTy).Contents (Elt Ideal)) (x4 : (⟨S3072x1024, .f32⟩ : BufTy).Contents (Elt Ideal)) (x5 : (⟨S3072, .f32⟩ : BufTy).Contents (Elt Ideal))

/-- The fused rows are real when the features, the fuse weight and the fuse bias are. -/
theorem real_fused (h0 : ∀ i, IsReal (x0 i)) (h1 : ∀ i, IsReal (x1 i)) (h2 : ∀ i, IsReal (x2 i)) (h3 : ∀ i, IsReal (x3 i)) :
    ∀ i, IsReal (val_main_v5 (F := Ideal) x0 x1 x2 x3 i) := by
  intro i
  rw [Layers.fused_eq]
  show IsReal (fusedAt x0 x1 x2 x3 (i 0) (i 1))
  unfold fusedAt
  exact (isReal_sum _ _ fun k _ => ((h0 _).add (h1 _)).mul (h2 _)).add (h3 _)

/-- The query entries are real. -/
theorem real_query (hq : ∀ i, IsReal (x0 i)) (h4 : ∀ i, IsReal (x4 i)) (h5 : ∀ i, IsReal (x5 i)) :
    ∀ i, IsReal (val_main_v16 (F := Ideal) x0 x4 x5 i) := by
  intro i
  rw [val_main_v16_apply, val_main_v13_apply, val_main_v15_apply, val_main_v14_apply, val_main_v9_apply]
  simp only [val_main_v12_apply, val_main_v6_apply]
  exact (isReal_sum _ _ fun k _ => (hq _).mul (h4 _)).add (h5 _)

/-- The key entries are real. -/
theorem real_key (hf : ∀ i, IsReal (val_main_v5 (F := Ideal) x0 x1 x2 x3 i)) (h4 : ∀ i, IsReal (x4 i)) (h5 : ∀ i, IsReal (x5 i)) :
    ∀ i, IsReal (val_main_v22 (F := Ideal) x0 x1 x2 x3 x4 x5 i) := by
  intro i
  rw [val_main_v22_apply, val_main_v19_apply, val_main_v21_apply, val_main_v20_apply, val_main_v10_apply]
  simp only [val_main_v18_apply, val_main_v7_apply]
  exact (isReal_sum _ _ fun k _ => (hf _).mul (h4 _)).add (h5 _)

/-- The score of a head at a row, the sum over the head's 128 columns of query times key over sqrt 128, is real. -/
theorem real_score (hq : ∀ i, IsReal (val_main_v16 (F := Ideal) x0 x4 x5 i))
    (hk : ∀ i, IsReal (val_main_v22 (F := Ideal) x0 x1 x2 x3 x4 x5 i)) :
    ∀ j, IsReal (val_main_v34 (F := Ideal) x0 x1 x2 x3 x4 x5 j) := by
  intro j
  rw [val_main_v34_apply, val_main_v31_apply, val_main_v33_apply, val_main_v32_apply, val_main_cst_0_apply, val_main_cst_apply]
  simp only [val_main_v30_apply, val_main_v17_apply, val_main_v23_apply]
  simp only [Ideal.hostDivf_def, Ideal.hostUnary_sqrt_def, Ideal.ofBits_def, Ideal.mulf_def]
  rw [Cert.Consts.sqrt_128, Ideal.ofBits_zero_f32]
  exact (isReal_zero.add (isReal_sum _ _ fun k _ => (hq _).mul (hk _))).div_coe Cert.Consts.sqrt_128_ne_zero

/-- The running maximum of the softmax at a head and row is the score itself. -/
theorem max_eq_score (j : S16384x8.Idx) :
    val_main_v38 (F := Ideal) x0 x1 x2 x3 x4 x5 j = val_main_v34 (F := Ideal) x0 x1 x2 x3 x4 x5 j := by
  rw [val_main_v38_apply, val_main_v37_apply, val_main_cst_2_apply]
  unfold val_main_v36
  rw [reduce_max_unit _ _ reducesTo_S16384x8x1_S16384x8_d2 (by decide) h_S_ rfl j]
  rw [val_main_cst_1_apply, val_main_v35_apply]
  simp only [Ideal.ofBits_def, Ideal.maximumf_def, Cert.Consts.ofBits_negInf]
  rw [max_bot_right, max_eq_right bot_le]
  exact congrArg _ (funext fun a => by match a with | ⟨0, _⟩ => rfl | ⟨1, _⟩ => rfl)

/-- THE WEIGHT: with real scores the softmax over the one key is 1 at every head, row and column. -/
theorem weight_one (hs : ∀ j, IsReal (val_main_v34 (F := Ideal) x0 x1 x2 x3 x4 x5 j)) (i : S16384x8x128.Idx) :
    val_main_v45 (F := Ideal) x0 x1 x2 x3 x4 x5 i = 1 := by
  rw [val_main_v45_apply, val_main_v44_apply, val_main_v43_apply, val_main_v42_apply, val_main_cst_3_apply]
  rw [Fin.sum_univ_one]
  simp only [val_main_v41_apply, val_main_v40_apply, val_main_v39_apply, val_main_v35_apply, max_eq_score]
  simp only [Ideal.hostDivf_def, Ideal.hostUnary_exp_def, Ideal.ofBits_def, Ideal.subf_def, Ideal.ofBits_zero_f32]
  have e : ∀ y : S16384x8x1.Idx, idx_main_v39 y = idx_main_v35 y := fun y => rfl
  have e' : idx_main_v35 (idx_main_v42 (idx_main_v43 (idx_main_v45 i)) 0) = idx_main_v35 (idx_main_v45 i) :=
    funext fun a => by match a with | ⟨0, _⟩ => rfl | ⟨1, _⟩ => rfl
  simp only [e, e']
  exact softmax_one _ (hs _)

/-- So the attention step returns the value projection: weighting by 1 and undoing the split into heads. -/
theorem attended_eq (hs : ∀ j, IsReal (val_main_v34 (F := Ideal) x0 x1 x2 x3 x4 x5 j)) :
    val_main_v47 (F := Ideal) x0 x1 x2 x3 x4 x5 = val_main_v28 (F := Ideal) x0 x1 x2 x3 x4 x5 := by
  funext i
  rw [val_main_v47_apply, val_main_v46_apply, weight_one x0 x1 x2 x3 x4 x5 hs, val_main_v29_apply]
  simp only [Ideal.mulf_def, one_mul]
  refine congrArg _ (funext fun a => Fin.ext ?_)
  have h0 : (i 0).val < 16384 := (i 0).isLt
  have h1 : (i 1).val < 1024 := (i 1).isLt
  match a with
  | ⟨0, _⟩ =>
    show (((((i 0).val * 1024 + (i 1).val) / 1024) * 8 + ((i 0).val * 1024 + (i 1).val) / 128 % 8) * 128 + ((i 0).val * 1024 + (i 1).val) % 128) / 1024 = (i 0).val
    omega
  | ⟨1, _⟩ =>
    show (((((i 0).val * 1024 + (i 1).val) / 1024) * 8 + ((i 0).val * 1024 + (i 1).val) / 128 % 8) * 128 + ((i 0).val * 1024 + (i 1).val) % 128) % 1024 = (i 1).val
    omega

/-- THE TEXT HEAD: with real entries the reference's first result is the output projection of the value projection of the
    fused rows. -/
theorem text_eq (x6 : (⟨S1024x1024, .f32⟩ : BufTy).Contents (Elt Ideal)) (x7 : (⟨S1024, .f32⟩ : BufTy).Contents (Elt Ideal))
    (h0 : ∀ i, IsReal (x0 i)) (h1 : ∀ i, IsReal (x1 i)) (h2 : ∀ i, IsReal (x2 i)) (h3 : ∀ i, IsReal (x3 i))
    (h4 : ∀ i, IsReal (x4 i)) (h5 : ∀ i, IsReal (x5 i)) :
    val_main_v52 (F := Ideal) x0 x1 x2 x3 x4 x5 x6 x7 = attend (fused x0 x1 x2 x3) x4 x5 x6 x7 := by
  have hf := real_fused x0 x1 x2 x3 h0 h1 h2 h3
  have hs := real_score x0 x1 x2 x3 x4 x5 (real_query x0 x4 x5 h0 h4 h5) (real_key x0 x1 x2 x3 x4 x5 hf h4 h5)
  rw [Layers.head_eq, attended_eq x0 x1 x2 x3 x4 x5 hs, Layers.value_eq, Layers.fused_eq]
  rfl

end

end Cert.ReferenceIdeal.WeightText

end
-- ==== Proof.RefLayersImage.lean ====
/-
  The reference's two affine layers of the image head, each as the specification's function of its operands.

  The reference computes a layer as a transpose of the stored [out, in] weight followed by a plain product, and a bias
  as a vector broadcast first to a row and then down the batch. Read at an entry (r, c) these are: the product's sum over
  k of the left operand at (r, k) times the weight at (c, k), plus the bias at c. The value projection uses the last third
  of the packed rows, rows 2048 + j. Nothing here needs the entries to be finite: only indices are moved.
-/
import proofs.«140227_j14018773254229_2_alg».proof.Proof.Gen.ReferenceIdeal.Read
import proofs.«140227_j14018773254229_2_alg».proof.Proof.Spec

noncomputable section

namespace Cert.ReferenceIdeal.LayersImage

open Cert.ReferenceIdeal Cert.ReferenceIdeal.Gen Cert.ReferenceIdeal.Read Cert.Fusion
open Idealize.ShloMosaic Idealize.ShloMosaic.ValueIdx

/-- The image head's value projection of the fused rows: rows 2048 + j of the packed weight and bias. -/
theorem value_eq (x0 x1 : (⟨S16384x1024, .f32⟩ : BufTy).Contents (Elt Ideal)) (x2 : (⟨S1024x1024, .f32⟩ : BufTy).Contents (Elt Ideal)) (x3 : (⟨S1024, .f32⟩ : BufTy).Contents (Elt Ideal)) (x8 : (⟨S3072x1024, .f32⟩ : BufTy).Contents (Elt Ideal)) (x9 : (⟨S3072, .f32⟩ : BufTy).Contents (Elt Ideal)) :
    val_main_v75 (F := Ideal) x0 x1 x2 x3 x8 x9 = value (val_main_v5 (F := Ideal) x0 x1 x2 x3) x8 x9 := by
  funext i
  rw [val_main_v75_apply, val_main_v72_apply, val_main_v74_apply, val_main_v73_apply, val_main_v58_apply]
  simp only [val_main_v71_apply, val_main_v55_apply]
  have e1 : ∀ k : Fin 1024, lidx_main_v72 i k = ix2 (i 0) k := fun k => funext fun a => by
    match a with | ⟨0, _⟩ => rfl | ⟨1, _⟩ => rfl
  have e2 : ∀ k : Fin 1024, idx_main_v55 (idx_main_v71 (ridx_main_v72 i k)) = ix2 (vrow (i 1)) k := fun k => funext fun a => by
    match a with | ⟨0, _⟩ => rfl | ⟨1, _⟩ => rfl
  have e3 : idx_main_v58 (idx_main_v73 (idx_main_v74 i)) = ix1 (vrow (i 1)) := funext fun a => by
    match a with | ⟨0, _⟩ => rfl
  simp only [e1, e2, e3]
  rfl

/-- The image head's output projection of whatever the attention step hands it. -/
theorem head_eq (x0 x1 : (⟨S16384x1024, .f32⟩ : BufTy).Contents (Elt Ideal)) (x2 : (⟨S1024x1024, .f32⟩ : BufTy).Contents (Elt Ideal)) (x3 : (⟨S1024, .f32⟩ : BufTy).Contents (Elt Ideal)) (x8 : (⟨S3072x1024, .f32⟩ : BufTy).Contents (Elt Ideal)) (x9 : (⟨S3072, .f32⟩ : BufTy).Contents (Elt Ideal))
    (x10 : (⟨S1024x1024, .f32⟩ : BufTy).Contents (Elt Ideal)) (x11 : (⟨S1024, .f32⟩ : BufTy).Contents (Elt Ideal)) :
    val_main_v99 (F := Ideal) x0 x1 x2 x3 x8 x9 x10 x11 = head (val_main_v94 (F := Ideal) x0 x1 x2 x3 x8 x9) x10 x11 := by
  funext i
  rw [val_main_v99_apply, val_main_v96_apply, val_main_v98_apply, val_main_v97_apply]
  simp only [val_main_v95_apply]
  have e1 : ∀ k : Fin 1024, lidx_main_v96 i k = ix2 (i 0) k := fun k => funext fun a => by
    match a with | ⟨0, _⟩ => rfl | ⟨1, _⟩ => rfl
  have e2 : ∀ k : Fin 1024, idx_main_v95 (ridx_main_v96 i k) = ix2 (i 1) k := fun k => funext fun a => by
    match a with | ⟨0, _⟩ => rfl | ⟨1, _⟩ => rfl
  have e3 : idx_main_v97 (idx_main_v98 i) = ix1 (i 1) := funext fun a => by
    match a with | ⟨0, _⟩ => rfl
  simp only [e1, e2, e3]
  rfl

end Cert.ReferenceIdeal.LayersImage

end
-- ==== Proof.RefWeightImage.lean ====
/-
  The image head's attention weight is 1.

  Each head attends over ONE key, so its softmax is taken over an axis of length one. With s the head's score at a row,
  the reference computes m = max(-infinity, max(-infinity, s)) = s, then e = exp(s - m), then e / (0 + e).
  If s is a real number then s - s = 0, exp 0 = 1, 0 + 1 = 1 and 1 / 1 = 1. (At an infinite score the difference
  s - s is not 0 on the extended reals, which is why the entries must be finite.)
  The score is a real number because it is a quotient, by the nonzero real sqrt 128, of a finite sum of products of the
  query and key entries, which are finite sums of products of real entries plus real biases.
  So the weighted values are the values themselves, and undoing the split into heads gives back the value projection.
-/
import proofs.«140227_j14018773254229_2_alg».proof.Proof.Gen.ReferenceIdeal.Read
import proofs.«140227_j14018773254229_2_alg».proof.Proof.RefLayersText
import proofs.«140227_j14018773254229_2_alg».proof.Proof.RefLayersImage
import proofs.«140227_j14018773254229_2_alg».proof.Proof.RefWeightText
import proofs.«140227_j14018773254229_2_alg».proof.Proof.LibFiniteValues
import proofs.«140227_j14018773254229_2_alg».proof.Proof.Consts
import Idealize.ShloMosaic.PureOps.Reduce
import Idealize.ShloMosaic.PureOps.Ideal.Laws

noncomputable section

namespace Cert.ReferenceIdeal.WeightImage

open Cert.ReferenceIdeal Cert.ReferenceIdeal.Gen Cert.ReferenceIdeal.Read Cert.Fusion Cert.FiniteValues
open Idealize.ShloMosaic Idealize.ShloMosaic.ValueIdx
open Cert.ReferenceIdeal.WeightText (softmax_one real_fused)
open Cert.UnitSoftmax (reduce_max_unit)

section
variable (x0 x1 : (⟨S16384x1024, .f32⟩ : BufTy).Contents (Elt Ideal)) (x2 : (⟨S1024x1024, .f32⟩ : BufTy).Contents (Elt Ideal)) (x3 : (⟨S1024, .f32⟩ : BufTy).Contents (Elt Ideal)) (x8 : (⟨S3072x1024, .f32⟩ : BufTy).Contents (Elt Ideal)) (x9 : (⟨S3072, .f32⟩ : BufTy).Contents (Elt Ideal))

/-- The query entries are real. -/
theorem real_query (hq : ∀ i, IsReal (x1 i)) (h8 : ∀ i, IsReal (x8 i)) (h9 : ∀ i, IsReal (x9 i)) :
    ∀ i, IsReal (val_main_v63 (F := Ideal) x1 x8 x9 i) := by
  intro i
  rw [val_main_v63_apply, val_main_v60_apply, val_main_v62_apply, val_main_v61_apply, val_main_v56_apply]
  simp only [val_main_v59_apply, val_main_v53_apply]
  exact (isReal_sum _ _ fun k _ => (hq _).mul (h8 _)).add (h9 _)

/-- The key entries are real. -/
theorem real_key (hf : ∀ i, IsReal (val_main_v5 (F := Ideal) x0 x1 x2 x3 i)) (h8 : ∀ i, IsReal (x8 i)) (h9 : ∀ i, IsReal (x9 i)) :
    ∀ i, IsReal (val_main_v69 (F := Ideal) x0 x1 x2 x3 x8 x9 i) := by
  intro i
  rw [val_main_v69_apply, val_main_v66_apply, val_main_v68_apply, val_main_v67_apply, val_main_v57_apply]
  simp only [val_main_v65_apply, val_main_v54_apply]
  exact (isReal_sum _ _ fun k _ => (hf _).mul (h8 _)).add (h9 _)

/-- The score of a head at a row, the sum over the head's 128 columns of query times key over sqrt 128, is real. -/
theorem real_score (hq : ∀ i, IsReal (val_main_v63 (F := Ideal) x1 x8 x9 i))
    (hk : ∀ i, IsReal (val_main_v69 (F := Ideal) x0 x1 x2 x3 x8 x9 i)) :
    ∀ j, IsReal (val_main_v81 (F := Ideal) x0 x1 x2 x3 x8 x9 j) := by
  intro j
  rw [val_main_v81_apply, val_main_v78_apply, val_main_v80_apply, val_main_v79_apply, val_main_cst_5_apply, val_main_cst_4_apply]
  simp only [val_main_v77_apply, val_main_v64_apply, val_main_v70_apply]
  simp only [Ideal.hostDivf_def, Ideal.hostUnary_sqrt_def, Ideal.ofBits_def, Ideal.mulf_def]
  rw [Cert.Consts.sqrt_128, Ideal.ofBits_zero_f32]
  exact (isReal_zero.add (isReal_sum _ _ fun k _ => (hq _).mul (hk _))).div_coe Cert.Consts.sqrt_128_ne_zero

/-- The running maximum of the softmax at a head and row is the score itself. -/
theorem max_eq_score (j : S16384x8.Idx) :
    val_main_v85 (F := Ideal) x0 x1 x2 x3 x8 x9 j = val_main_v81 (F := Ideal) x0 x1 x2 x3 x8 x9 j := by
  rw [val_main_v85_apply, val_main_v84_apply, val_main_cst_7_apply]
  unfold val_main_v83
  rw [reduce_max_unit _ _ reducesTo_S16384x8x1_S16384x8_d2 (by decide) h_S_ rfl j]
  rw [val_main_cst_6_apply, val_main_v82_apply]
  simp only [Ideal.ofBits_def, Ideal.maximumf_def, Cert.Consts.ofBits_negInf]
  rw [max_bot_right, max_eq_right bot_le]
  exact congrArg _ (funext fun a => by match a with | ⟨0, _⟩ => rfl | ⟨1, _⟩ => rfl)

/-- THE WEIGHT: with real scores the softmax over the one key is 1 at every head, row and column. -/
theorem weight_one (hs : ∀ j, IsReal (val_main_v81 (F := Ideal) x0 x1 x2 x3 x8 x9 j)) (i : S16384x8x128.Idx) :
    val_main_v92 (F := Ideal) x0 x1 x2 x3 x8 x9 i = 1 := by
  rw [val_main_v92_apply, val_main_v91_apply, val_main_v90_apply, val_main_v89_apply, val_main_cst_8_apply]
  rw [Fin.sum_univ_one]
  simp only [val_main_v88_apply, val_main_v87_apply, val_main_v86_apply, val_main_v82_apply, max_eq_score]
  simp only [Ideal.hostDivf_def, Ideal.hostUnary_exp_def, Ideal.ofBits_def, Ideal.subf_def, Ideal.ofBits_zero_f32]
  have e : ∀ y : S16384x8x1.Idx, idx_main_v86 y = idx_main_v82 y := fun y => rfl
  have e' : idx_main_v82 (idx_main_v89 (idx_main_v90 (idx_main_v92 i)) 0) = idx_main_v82 (idx_main_v92 i) :=
    funext fun a => by match a with | ⟨0, _⟩ => rfl | ⟨1, _⟩ => rfl
  simp only [e, e']
  exact softmax_one _ (hs _)

/-- So the attention step returns the value projection: weighting by 1 and undoing the split into heads. -/
theorem attended_eq (hs : ∀ j, IsReal (val_main_v81 (F := Ideal) x0 x1 x2 x3 x8 x9 j)) :
    val_main_v94 (F := Ideal) x0 x1 x2 x3 x8 x9 = val_main_v75 (F := Ideal) x0 x1 x2 x3 x8 x9 := by
  funext i
  rw [val_main_v94_apply, val_main_v93_apply, weight_one x0 x1 x2 x3 x8 x9 hs, val_main_v76_apply]
  simp only [Ideal.mulf_def, one_mul]
  refine congrArg _ (funext fun a => Fin.ext ?_)
  have h0 : (i 0).val < 16384 := (i 0).isLt
  have h1 : (i 1).val < 1024 := (i 1).isLt
  match a with
  | ⟨0, _⟩ =>
    show (((((i 0).val * 1024 + (i 1).val) / 1024) * 8 + ((i 0).val * 1024 + (i 1).val) / 128 % 8) * 128 + ((i 0).val * 1024 + (i 1).val) % 128) / 1024 = (i 0).val
    omega
  | ⟨1, _⟩ =>
    show (((((i 0).val * 1024 + (i 1).val) / 1024) * 8 + ((i 0).val * 1024 + (i 1).val) / 128 % 8) * 128 + ((i 0).val * 1024 + (i 1).val) % 128) % 1024 = (i 1).val
    omega

/-- THE IMAGE HEAD: with real entries the reference's second result is the output projection of the value projection of the
    fused rows. -/
theorem image_eq (x10 : (⟨S1024x1024, .f32⟩ : BufTy).Contents (Elt Ideal)) (x11 : (⟨S1024, .f32⟩ : BufTy).Contents (Elt Ideal))
    (h0 : ∀ i, IsReal (x0 i)) (h1 : ∀ i, IsReal (x1 i)) (h2 : ∀ i, IsReal (x2 i)) (h3 : ∀ i, IsReal (x3 i))
    (h8 : ∀ i, IsReal (x8 i)) (h9 : ∀ i, IsReal (x9 i)) :
    val_main_v99 (F := Ideal) x0 x1 x2 x3 x8 x9 x10 x11 = attend (fused x0 x1 x2 x3) x8 x9 x10 x11 := by
  have hf := real_fused x0 x1 x2 x3 h0 h1 h2 h3
  have hs := real_score x0 x1 x2 x3 x8 x9 (real_query x1 x8 x9 h1 h8 h9) (real_key x0 x1 x2 x3 x8 x9 hf h8 h9)
  rw [LayersImage.head_eq, attended_eq x0 x1 x2 x3 x8 x9 hs, LayersImage.value_eq, Layers.fused_eq]
  rfl

end

end Cert.ReferenceIdeal.WeightImage

end
-- ==== Proof.FiniteEntries.lean ====
/-
  From the precondition to "every entry of every argument is a real number".

  The precondition is the conjunction, over the twelve argument arrays, of "every entry x has |x| < +infinity", each
  stated as an all-reduction by "and" of an entrywise comparison. On the extended reals |x| = max x (-x), which is
  +infinity at both infinities, so the comparison holds exactly at the real numbers. A conjunction that is 1 gives each
  conjunct, and an all-reduction that is 1 gives the comparison at every index.
-/
import proofs.«140227_j14018773254229_2_alg».proof.Pre_finite_inputs
import proofs.«140227_j14018773254229_2_alg».proof.Proof.LibFiniteValues
import proofs.«140227_j14018773254229_2_alg».proof.Proof.Consts
import Idealize.ShloMosaic.Lib.ReduceAll
import Idealize.ShloMosaic.Lib.Affine
import Idealize.ShloMosaic.Lib.ValueIdx
import Idealize.ShloMosaic.Lib.Pipeline.Value
import Idealize.ShloMosaic.PureOps.Ideal.Laws

noncomputable section

namespace Cert.FiniteInputs

open Idealize.ShloMosaic Idealize.ShloMosaic.ValueIdx Cert.FiniteValues

/-- The scalar shape has one index. -/
instance : Subsingleton (⟨0, ![]⟩ : Shape).Idx := ⟨fun a b => funext fun d => d.elim0⟩

/-- |x| < +infinity on the extended reals says that x is a real number. -/
theorem isReal_of_abs_lt_top (x : EReal) (h : Ideal.cmp .olt (max x (-x)) ⊤ = 1#1) : IsReal x := by
  have h' : max x (-x) < ⊤ := by
    by_contra hn
    have e0 : Ideal.cmp .olt (max x (-x)) ⊤ = 0#1 := by
      show BitVec.ofBool (decide (max x (-x) < ⊤)) = 0#1
      rw [decide_eq_false hn]; rfl
    rw [e0] at h
    exact absurd h (by decide)
  induction x using EReal.rec with
  | bot => simp at h'
  | coe r => exact ⟨r, rfl⟩
  | top => simp at h'

/-- One "all entries have |x| < +infinity" that holds: every entry of the array is a real number. -/
theorem entries_real {s : Shape} {axes : List (Fin s.rank)} (x : FVec Ideal s .f32)
    (hb : (⟨0, ![]⟩ : Shape).BroadcastsInDim s (![] : Fin 0 → Fin s.rank))
    (h : s.ReducesTo axes ⟨0, ![]⟩) (hu : 0 < (⟨0, ![]⟩ : Shape).numel) (init : (⟨0, ![]⟩ : Shape).Idx → BitVec 1)
    (e : Host.reduce IntOp.andi (cmpf .olt (Host.absf x) (broadcastInDim s ![] hb (constant (F := Ideal) ⟨0, ![]⟩ .f32 0x7F800000#32))) init h hu ix0 = 1#1)
    (i : s.Idx) : IsReal (x i) := by
  have hi := Host.reduce_andi_all _ init h hu ix0 e i
  have eb : broadcastInDim s ![] hb (constant (F := Ideal) ⟨0, ![]⟩ .f32 0x7F800000#32) i = (⊤ : EReal) :=
    (broadcastInDim_apply _ hb _ i ix0 (fun a => a.elim0)).trans Cert.Consts.ofBits_posInf
  refine isReal_of_abs_lt_top (x i) ?_
  have hi' : Ideal.cmp .olt (max (x i) (-(x i))) (broadcastInDim s ![] hb (constant (F := Ideal) ⟨0, ![]⟩ .f32 0x7F800000#32) i) = 1#1 := hi
  rwa [eb] at hi'

end Cert.FiniteInputs

end
-- ==== Proof.FiniteArgs.lean ====
/-
  The precondition, opened: each of the twelve argument arrays holds real numbers only.

  The printed precondition is a left-nested conjunction of twelve all-reductions, one per argument in order; it is
  taken apart from the outside in, and each all-reduction gives its array's entries.
-/
import proofs.«140227_j14018773254229_2_alg».proof.Proof.FiniteEntries

noncomputable section

namespace Cert.FiniteInputs

open Idealize.ShloMosaic Idealize.ShloMosaic.ValueIdx Cert.FiniteValues Cert.Pre_finite_inputs

variable [Cert.Pre_finite_inputs.Facts]

/-- If the precondition holds of twelve arrays of extended reals, every entry of each is a real number. -/
theorem args_real (a0 a1 : FVec Ideal S16384x1024 .f32) (a2 : FVec Ideal S1024x1024 .f32) (a3 : FVec Ideal S1024 .f32)
    (a4 : FVec Ideal S3072x1024 .f32) (a5 : FVec Ideal S3072 .f32) (a6 : FVec Ideal S1024x1024 .f32) (a7 : FVec Ideal S1024 .f32)
    (a8 : FVec Ideal S3072x1024 .f32) (a9 : FVec Ideal S3072 .f32) (a10 : FVec Ideal S1024x1024 .f32) (a11 : FVec Ideal S1024 .f32)
    (h : fn (F := Ideal) a0 a1 a2 a3 a4 a5 a6 a7 a8 a9 a10 a11 = fun _ => 1#1) :
    (∀ i, IsReal (a0 i)) ∧ (∀ i, IsReal (a1 i)) ∧ (∀ i, IsReal (a2 i)) ∧ (∀ i, IsReal (a3 i)) ∧ (∀ i, IsReal (a4 i))
      ∧ (∀ i, IsReal (a5 i)) ∧ (∀ i, IsReal (a6 i)) ∧ (∀ i, IsReal (a7 i)) ∧ (∀ i, IsReal (a8 i)) ∧ (∀ i, IsReal (a9 i))
      ∧ (∀ i, IsReal (a10 i)) ∧ (∀ i, IsReal (a11 i)) := by
  have h0 := congrFun h ix0
  dsimp only [fn, fn_part1, fn_part2, fn_part3, andi] at h0
  obtain ⟨h0, e11⟩ := IntOp.andi_eq_one.1 h0
  obtain ⟨h0, e10⟩ := IntOp.andi_eq_one.1 h0
  obtain ⟨h0, e9⟩ := IntOp.andi_eq_one.1 h0
  obtain ⟨h0, e8⟩ := IntOp.andi_eq_one.1 h0
  obtain ⟨h0, e7⟩ := IntOp.andi_eq_one.1 h0
  obtain ⟨h0, e6⟩ := IntOp.andi_eq_one.1 h0
  obtain ⟨h0, e5⟩ := IntOp.andi_eq_one.1 h0
  obtain ⟨h0, e4⟩ := IntOp.andi_eq_one.1 h0
  obtain ⟨h0, e3⟩ := IntOp.andi_eq_one.1 h0
  obtain ⟨h0, e2⟩ := IntOp.andi_eq_one.1 h0
  obtain ⟨e0, e1⟩ := IntOp.andi_eq_one.1 h0
  exact ⟨entries_real a0 _ _ _ _ e0, entries_real a1 _ _ _ _ e1, entries_real a2 _ _ _ _ e2, entries_real a3 _ _ _ _ e3,
    entries_real a4 _ _ _ _ e4, entries_real a5 _ _ _ _ e5, entries_real a6 _ _ _ _ e6, entries_real a7 _ _ _ _ e7,
    entries_real a8 _ _ _ _ e8, entries_real a9 _ _ _ _ e9, entries_real a10 _ _ _ _ e10, entries_real a11 _ _ _ _ e11⟩

end Cert.FiniteInputs

end
-- ==== Proof.lean ====
/-
  The kernel and its reference compute the same three arrays on the extended reals.

  A batch of 16384 rows of 1024 features, text and image, goes through a fuse layer and two attention heads:
    fused = (text + image) · fuse_wᵀ + fuse_b,
  and each head projects the fused rows to queries-keys-values with a packed [3072, 1024] weight, attends, and applies
  an output layer. Both heads attend from one query to ONE key per row and head, so the softmax is over an axis of length
  one and its weight is 1: the attention step returns the value projection itself,
    out = (fused · in_w[2048:3072]ᵀ + in_b[2048:3072]) · out_wᵀ + out_b.
  The kernel computes exactly this, 512 rows at a time over 32 grid points, with the two value projections joined into
  one [1024, 2048] product whose halves are then sliced apart; joined block by block it is the specification's
  fused, attend (text head) and attend (image head) of the argument arrays (Proof/KernelRun.lean and the modules under it).
  The reference computes the queries, keys, scores, maxima, exponentials and quotients as well. Its weight is
  exp (s - max(-inf, max(-inf, s))) / (0 + exp (s - ...)), which is 1 when the score s is a real number and is NOT 1 at an
  infinite score (there s - s is not 0). This is where the precondition is used: every argument entry is a real number
  (Proof/FiniteArgs.lean), so every query and key entry, and every score, is one (Proof/RefWeightText.lean,
  Proof/RefWeightImage.lean). No other law is needed: with the weight gone, both sides are the same sums in the same
  order, and only indices are moved (Proof/RefLayersText.lean, Proof/RefLayersImage.lean).
  The three frames are the generated frames of the two kernels and the reference's run with its results dropped;
  the idealization rewrote nothing.
-/
import proofs.«140227_j14018773254229_2_alg».proof.Defs
import proofs.«140227_j14018773254229_2_alg».proof.Proof.Gen.Kernel
import proofs.«140227_j14018773254229_2_alg».proof.Proof.Gen.Kernel.Skeleton
import proofs.«140227_j14018773254229_2_alg».proof.Proof.Gen.Kernel.Launch
import proofs.«140227_j14018773254229_2_alg».proof.Proof.Gen.Kernel.Points
import proofs.«140227_j14018773254229_2_alg».proof.Proof.Gen.Kernel.Frame
import proofs.«140227_j14018773254229_2_alg».proof.Proof.Gen.KernelIdeal
import proofs.«140227_j14018773254229_2_alg».proof.Proof.Gen.KernelIdeal.Skeleton
import proofs.«140227_j14018773254229_2_alg».proof.Proof.Gen.KernelIdeal.Launch
import proofs.«140227_j14018773254229_2_alg».proof.Proof.Gen.KernelIdeal.Points
import proofs.«140227_j14018773254229_2_alg».proof.Proof.Gen.KernelIdeal.Frame
import proofs.«140227_j14018773254229_2_alg».proof.Proof.Gen.KernelIdeal.Value
import proofs.«140227_j14018773254229_2_alg».proof.Proof.Gen.ReferenceIdeal
import proofs.«140227_j14018773254229_2_alg».proof.Proof.Gen.ReferenceIdeal.Run
import proofs.«140227_j14018773254229_2_alg».proof.Proof.Gen.ReferenceIdeal.Read
import proofs.«140227_j14018773254229_2_alg».proof.Proof.Gen.Pre_finite_inputs
import proofs.«140227_j14018773254229_2_alg».proof.Proof.Spec
import proofs.«140227_j14018773254229_2_alg».proof.Proof.KernelRun
import proofs.«140227_j14018773254229_2_alg».proof.Proof.RefWeightText
import proofs.«140227_j14018773254229_2_alg».proof.Proof.RefWeightImage
import proofs.«140227_j14018773254229_2_alg».proof.Proof.FiniteArgs
import Idealize.ShloMosaic.Adequacy
import Idealize.ShloMosaic.Init

noncomputable section

namespace Cert.Proof

open Idealize.ShloMosaic Idealize.SL.Sem

/-- The kernel as printed terminates without a fault and leaves its arguments as they were: the generated frame. -/
theorem frame_kernel : Cert.frame_Kernel := fun m ρ _ => Cert.Kernel.Gen.frame m ρ

/-- The same of the kernel read on the extended reals. -/
theorem frame_kernel_ideal : Cert.frame_KernelIdeal := fun m ρ _ => Cert.KernelIdeal.Gen.frame m ρ

/-- The reference is a straight line of host operations: its run, with the results dropped. -/
theorem frame_reference : Cert.frame_ReferenceIdeal := fun m ρ _ =>
  (θ_run Cert.ReferenceIdeal.defs _ _).mono (fun _ h c => (h c).2.2.2) (Cert.ReferenceIdeal.Value.run (F := Ideal) m ρ)

/-- The idealization rewrote no operation. -/
theorem preserves : Cert.preserves_Kernel_KernelIdeal := trivial

/-- On the extended reals, from memories that agree on the twelve arguments and hold real numbers there, the kernel and
    the reference end with the same three arrays: the two heads' output projections of their value projections of the
    fused rows, and the fused rows. The kernel computes exactly these (block by block, then joined); the reference
    computes them through a softmax over one key per head, whose weight is 1 because every score is a real number. -/
theorem algebraic : Cert.algebraic_KernelIdeal_ReferenceIdeal := by
  intro m ρ m' ρ' hpre hagree
  refine ⟨_, _, _, Cert.KernelIdeal.FusionValue.run m ρ, ?_⟩
  refine (θ_run Cert.ReferenceIdeal.defs _ _).mono (fun r h c => ?_) (Cert.ReferenceIdeal.Value.run (F := Ideal) m' ρ')
  obtain ⟨a0, a1, a2, a3, a4, a5, a6, a7, a8, a9, a10, a11⟩ := hagree c
  obtain ⟨r0, r1, r2, r3, r4, r5, r6, r7, r8, r9, r10, r11⟩ :=
    Cert.FiniteInputs.args_real _ _ _ _ _ _ _ _ _ _ _ _ (hpre c)
  refine ⟨(h c).1.trans ?_, (h c).2.1.trans ?_, (h c).2.2.1.trans ?_, (h c).2.2.2⟩
  · rw [Cert.ReferenceIdeal.Read.val_main_v52_eq, a0, a1, a2, a3, a4, a5, a6, a7]
    exact Cert.ReferenceIdeal.WeightText.text_eq _ _ _ _ _ _ _ _ r0 r1 r2 r3 r4 r5
  · rw [Cert.ReferenceIdeal.Read.val_main_v99_eq, a0, a1, a2, a3, a8, a9, a10, a11]
    exact Cert.ReferenceIdeal.WeightImage.image_eq _ _ _ _ _ _ _ _ r0 r1 r2 r3 r8 r9
  · rw [Cert.ReferenceIdeal.Read.val_main_v5_eq, a0, a1, a2, a3]
    exact Cert.ReferenceIdeal.Layers.fused_eq _ _ _ _

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, preserves, algebraic⟩

end Cert.Proof

end
